-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v17) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x4096x64 : Shape := ⟨3, ![16, 4096, 64]⟩
abbrev S256x64 : Shape := ⟨2, ![256, 64]⟩
abbrev S_ : Shape := ⟨0, ![]⟩

class Facts : Prop where
  bcast_S_S16x4096x64 : S_.BroadcastsInDim S16x4096x64 (![] : Fin 0 → Fin S16x4096x64.rank)
  reducesTo_S16x4096x64_S_d0_1_2 : S16x4096x64.ReducesTo [0, 1, 2] S_
  h_S_ : 0 < S_.numel
  bcast_S_S256x64 : S_.BroadcastsInDim S256x64 (![] : Fin 0 → Fin S256x64.rank)
  reducesTo_S256x64_S_d0_1 : S256x64.ReducesTo [0, 1] S_

variable [Facts]

def fn {F : FTy → Type} [FloatOps F] (main_arg0 : FVec F S16x4096x64 .f32) (main_arg1 : FVec F S256x64 .f32) : IVec S_ 1 :=
  let main_v0 : FVec F S16x4096x64 .f32 := Host.absf main_arg0
  let main_cst : FVec F S_ .f32 := constant S_ .f32 0x7F800000#32
  let main_v1 : FVec F S16x4096x64 .f32 := broadcastInDim S16x4096x64 ![] bcast_S_S16x4096x64 main_cst
  let main_v2 : IVec S16x4096x64 1 := cmpf .olt main_v0 main_v1
  let main_c : IVec S_ 1 := constantI S_ 1 1#1
  let main_v3 : IVec S_ 1 := (fun x v => Host.reduce IntOp.andi x v reducesTo_S16x4096x64_S_d0_1_2 h_S_) main_v2 main_c
  let main_v4 : FVec F S256x64 .f32 := Host.absf main_arg1
  let main_cst_0 : FVec F S_ .f32 := constant S_ .f32 0x7F800000#32
  let main_v5 : FVec F S256x64 .f32 := broadcastInDim S256x64 ![] bcast_S_S256x64 main_cst_0
  let main_v6 : IVec S256x64 1 := cmpf .olt main_v4 main_v5
  let main_c_1 : IVec S_ 1 := constantI S_ 1 1#1
  let main_v7 : IVec S_ 1 := (fun x v => Host.reduce IntOp.andi x v reducesTo_S256x64_S_d0_1 h_S_) main_v6 main_c_1
  let main_v8 : IVec S_ 1 := andi main_v3 main_v7
  main_v8
-- ==== Kernel.lean ====
abbrev S16x4096x64 : Shape := ⟨3, ![16, 4096, 64]⟩
abbrev S256x64 : Shape := ⟨2, ![256, 64]⟩
abbrev S64x256 : Shape := ⟨2, ![64, 256]⟩
abbrev S_ : Shape := ⟨0, ![]⟩
abbrev S256 : Shape := ⟨1, ![256]⟩
abbrev S1x256 : Shape := ⟨2, ![1, 256]⟩
abbrev S16x256 : Shape := ⟨2, ![16, 256]⟩
abbrev S8x1024x64 : Shape := ⟨3, ![8, 1024, 64]⟩
abbrev S8x256 : Shape := ⟨2, ![8, 256]⟩
abbrev S8x1024 : Shape := ⟨2, ![8, 1024]⟩
abbrev S8192x64 : Shape := ⟨2, ![8192, 64]⟩
abbrev S8192x256 : Shape := ⟨2, ![8192, 256]⟩
abbrev S8x1024x256 : Shape := ⟨3, ![8, 1024, 256]⟩
abbrev S8x1024x1 : Shape := ⟨3, ![8, 1024, 1]⟩

abbrev nBuf : Space → Nat
  | .hbm => 9
  | .vmem => 6
  | .smem => 0
  | _ => 0

abbrev bufTy : (tb : Table) → Fin (tcTables nBuf tb) → BufTy
  | .hbm, ⟨0, _⟩ => ⟨S16x4096x64, .f32⟩
  | .hbm, ⟨1, _⟩ => ⟨S256x64, .f32⟩
  | .hbm, ⟨2, _⟩ => ⟨S64x256, .f32⟩
  | .hbm, ⟨3, _⟩ => ⟨S64x256, .bf16⟩
  | .hbm, ⟨4, _⟩ => ⟨S256x64, .f32⟩
  | .hbm, ⟨5, _⟩ => ⟨S_, .f32⟩
  | .hbm, ⟨6, _⟩ => ⟨S256, .f32⟩
  | .hbm, ⟨7, _⟩ => ⟨S1x256, .f32⟩
  | .hbm, ⟨8, _⟩ => ⟨S16x256, .f32⟩
  | .local _ .vmem, ⟨0, _⟩ => ⟨S8x1024x64, .f32⟩
  | .local _ .vmem, ⟨1, _⟩ => ⟨S8x1024x64, .f32⟩
  | .local _ .vmem, ⟨2, _⟩ => ⟨S64x256, .bf16⟩
  | .local _ .vmem, ⟨3, _⟩ => ⟨S1x256, .f32⟩
  | .local _ .vmem, ⟨4, _⟩ => ⟨S8x256, .f32⟩
  | .local _ .vmem, ⟨5, _⟩ => ⟨S8x256, .f32⟩
  | _, _ => ⟨S16x4096x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨2, ![2, 4], ![false, false]⟩

def k0_cond1 (i : grid0.Coords) : BitVec 1 :=
  let arg1 : BitVec 32 := BitVec.ofNat 32 (i 1).val
  let c0_i32 : BitVec 32 := 0#32
  let v15 : BitVec 1 := Scalar.cmpi .eq arg1 c0_i32
  let v16 : BitVec 32 := Scalar.extui v15
  let c0_i32_7 : BitVec 32 := 0#32
  let v17 : BitVec 1 := Scalar.cmpi .ne v16 c0_i32_7
  v17

def k0_cond2 (i : grid0.Coords) : BitVec 1 :=
  let arg1 : BitVec 32 := BitVec.ofNat 32 (i 1).val
  let c0_i32_8 : BitVec 32 := 0#32
  let v18 : BitVec 1 := Scalar.cmpi .sgt arg1 c0_i32_8
  let v19 : BitVec 32 := Scalar.extui v18
  let c0_i32_9 : BitVec 32 := 0#32
  let v20 : BitVec 1 := Scalar.cmpi .ne v19 c0_i32_9
  v20

def k0_cond3 (i : grid0.Coords) : BitVec 1 :=
  let arg1 : BitVec 32 := BitVec.ofNat 32 (i 1).val
  let c3_i32 : BitVec 32 := 3#32
  let v21 : BitVec 1 := Scalar.cmpi .eq arg1 c3_i32
  let v22 : BitVec 32 := Scalar.extui v21
  let c0_i32_10 : BitVec 32 := 0#32
  let v23 : BitVec 1 := Scalar.cmpi .ne v22 c0_i32_10
  v23

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S8x1024x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S64x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S8x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

class Facts₀ : Prop where
  transposes_S256x64_S64x256_1_0 : S256x64.Transposes [1, 0] S64x256
  bitsLt_bf16_f32 : FTy.bits .bf16 < FTy.bits .f32
  reducesTo_S256x64_S256_d1 : S256x64.ReducesTo [1] S256
  h_S_ : 0 < S_.numel
  shapeCasts_S256_S1x256 : S256.ShapeCasts S1x256
  inb_S8x1024x64_S8x1024x64_0_0_0 : ∀ a, (![0, 0, 0] : Fin 3 → Nat) a + S8x1024x64.size a ≤ S8x1024x64.size a
  h_S8x1024x64 : 0 < S8x1024x64.numel
  inb_S64x256_S64x256_0_0 : ∀ a, (![0, 0] : Fin 2 → Nat) a + S64x256.size a ≤ S64x256.size a
  h_S64x256 : 0 < S64x256.numel
  shapeCasts_S64x256_S64x256 : S64x256.ShapeCasts S64x256
  reduces_S8x1024x64_S8x1024 : S8x1024x64.Reduces [2] S8x1024
  shapeCasts_S8x1024x64_S8192x64 : S8x1024x64.ShapeCasts S8192x64
  shapeCasts_S8192x256_S8x1024x256 : S8192x256.ShapeCasts S8x1024x256
  shapeCasts_S8x1024_S8x1024x1 : S8x1024.ShapeCasts S8x1024x1
  broadcasts_S8x1024x1_S8x1024x256 : S8x1024x1.Broadcasts S8x1024x256
  reduces_S8x1024x256_S8x256 : S8x1024x256.Reduces [1] S8x256
  inb_S8x256_S8x256_0_0 : ∀ a, (![0, 0] : Fin 2 → Nat) a + S8x256.size a ≤ S8x256.size a
  h_S8x256 : 0 < S8x256.numel
  shapeCasts_S8x256_S8x256 : S8x256.ShapeCasts S8x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S8x256 : S1x256.Broadcasts S8x256
  dot_S8192x64_S64x256_S8192x256_1_0_0_1_n_n_wf : DotDims.WF S8192x64 S64x256 S8192x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x1024x64.size a ≤ S16x4096x64.size a
  hwx0_0 : ∀ i : grid0.Coords, EltTy.bits .f32 = 32 ∨ (Rect.block (s := S16x4096x64) S8x1024x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x256.size a ≤ S64x256.size a
  hwx0_1 : ∀ i : grid0.Coords, EltTy.bits .bf16 = 32 ∨ (Rect.block (s := S64x256) S64x256.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x256.size a ≤ S1x256.size a
  hwx0_2 : ∀ i : grid0.Coords, EltTy.bits .f32 = 32 ∨ (Rect.block (s := S1x256) S1x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S8x256.size a ≤ S16x256.size a
  hwx0_3 : ∀ i : grid0.Coords, EltTy.bits .f32 = 32 ∨ (Rect.block (s := S16x256) S8x256.size (cc0_transform_3 i) (hinb0_3 i)).WholeWords (EltTy.packing .f32)

variable [Facts₀]

def dot_S8192x64_S64x256_S8192x256_1_0_0_1_n_n : DotDims S8192x64 S64x256 S8192x256 where
  lhsContracting := [1]
  rhsContracting := [0]
  lhsNonContracting := [0]
  rhsNonContracting := [1]
  lhsBatch := []
  rhsBatch := []
  wf := dot_S8192x64_S64x256_S8192x256_1_0_0_1_n_n_wf

abbrev win0_0 : Pipeline.Window sig grid0 :=
  Pipeline.Window.ofSpec (Memref.whole main_arg0) S8x1024x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S64x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S1x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v5) S8x256.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond1 i == 1#1) && !(k0_cond2 i == 1#1) && !(k0_cond3 i == 1#1) | ⟨_ + 4, h⟩ => absurd h (Nat.not_lt.2 (Nat.le_add_left _ _))

class Facts : Prop extends Facts₀ where

variable [Facts]
-- ==== ReferenceIdeal.lean ====
abbrev S16x4096x64 : Shape := ⟨3, ![16, 4096, 64]⟩
abbrev S256x64 : Shape := ⟨2, ![256, 64]⟩
abbrev S_ : Shape := ⟨0, ![]⟩
abbrev S16x4096 : Shape := ⟨2, ![16, 4096]⟩
abbrev S256 : Shape := ⟨1, ![256]⟩
abbrev S256x16x4096 : Shape := ⟨3, ![256, 16, 4096]⟩
abbrev S16x256x4096 : Shape := ⟨3, ![16, 256, 4096]⟩
abbrev S16x1x4096 : Shape := ⟨3, ![16, 1, 4096]⟩
abbrev S1x256x1 : Shape := ⟨3, ![1, 256, 1]⟩
abbrev S16x256 : Shape := ⟨2, ![16, 256]⟩

abbrev nBuf : Space → Nat
  | .hbm => 25
  | .vmem => 0
  | .smem => 0
  | _ => 0

abbrev bufTy : (tb : Table) → Fin (tcTables nBuf tb) → BufTy
  | .hbm, ⟨0, _⟩ => ⟨S16x4096x64, .f32⟩
  | .hbm, ⟨1, _⟩ => ⟨S256x64, .f32⟩
  | .hbm, ⟨2, _⟩ => ⟨S16x4096x64, .f32⟩
  | .hbm, ⟨3, _⟩ => ⟨S_, .f32⟩
  | .hbm, ⟨4, _⟩ => ⟨S16x4096, .f32⟩
  | .hbm, ⟨5, _⟩ => ⟨S256x64, .f32⟩
  | .hbm, ⟨6, _⟩ => ⟨S_, .f32⟩
  | .hbm, ⟨7, _⟩ => ⟨S256, .f32⟩
  | .hbm, ⟨8, _⟩ => ⟨S256x16x4096, .f32⟩
  | .hbm, ⟨9, _⟩ => ⟨S16x256x4096, .f32⟩
  | .hbm, ⟨10, _⟩ => ⟨S16x1x4096, .f32⟩
  | .hbm, ⟨11, _⟩ => ⟨S1x256x1, .f32⟩
  | .hbm, ⟨12, _⟩ => ⟨S16x256x4096, .f32⟩
  | .hbm, ⟨13, _⟩ => ⟨S16x256x4096, .f32⟩
  | .hbm, ⟨14, _⟩ => ⟨S16x256x4096, .f32⟩
  | .hbm, ⟨15, _⟩ => ⟨S_, .f32⟩
  | .hbm, ⟨16, _⟩ => ⟨S16x256x4096, .f32⟩
  | .hbm, ⟨17, _⟩ => ⟨S16x256x4096, .f32⟩
  | .hbm, ⟨18, _⟩ => ⟨S16x256x4096, .f32⟩
  | .hbm, ⟨19, _⟩ => ⟨S_, .f32⟩
  | .hbm, ⟨20, _⟩ => ⟨S16x256x4096, .f32⟩
  | .hbm, ⟨21, _⟩ => ⟨S16x256x4096, .f32⟩
  | .hbm, ⟨22, _⟩ => ⟨S16x256x4096, .f32⟩
  | .hbm, ⟨23, _⟩ => ⟨S_, .f32⟩
  | .hbm, ⟨24, _⟩ => ⟨S16x256, .f32⟩
  | _, _ => ⟨S16x4096x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_cst_1 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_cst_2 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_cst_3 : Ref sig .tc := ⟨.hbm, 23, rfl⟩
abbrev main_v17 : Ref sig .tc := ⟨.hbm, 24, rfl⟩

abbrev nD : Nat := 1
abbrev τ : Topo := Topo.v7x

variable {F : FTy → Type} [FloatOps F]

class Facts₀ : Prop where
  reducesTo_S16x4096x64_S16x4096_d2 : S16x4096x64.ReducesTo [2] S16x4096
  h_S_ : 0 < S_.numel
  reducesTo_S256x64_S256_d1 : S256x64.ReducesTo [1] S256
  transposes_S256x16x4096_S16x256x4096_1_0_2 : S256x16x4096.Transposes [1, 0, 2] S16x256x4096
  bcast_S16x4096_S16x1x4096_0_2 : S16x4096.BroadcastsInDim S16x1x4096 (![0, 2] : Fin 2 → Fin S16x1x4096.rank)
  bcast_S256_S1x256x1_1 : S256.BroadcastsInDim S1x256x1 (![1] : Fin 1 → Fin S1x256x1.rank)
  bcast_S16x1x4096_S16x256x4096_0_1_2 : S16x1x4096.BroadcastsInDim S16x256x4096 (![0, 1, 2] : Fin 3 → Fin S16x256x4096.rank)
  bcast_S1x256x1_S16x256x4096_0_1_2 : S1x256x1.BroadcastsInDim S16x256x4096 (![0, 1, 2] : Fin 3 → Fin S16x256x4096.rank)
  bcast_S_S16x256x4096 : S_.BroadcastsInDim S16x256x4096 (![] : Fin 0 → Fin S16x256x4096.rank)
  reducesTo_S16x256x4096_S16x256_d2 : S16x256x4096.ReducesTo [2] S16x256
  dot_S256x64_S16x4096x64_S256x16x4096_1_2_0_01_n_n_wf : DotDims.WF S256x64 S16x4096x64 S256x16x4096 [1] [2] [0] [0, 1] [] []

variable [Facts₀]

def dot_S256x64_S16x4096x64_S256x16x4096_1_2_0_01_n_n : DotDims S256x64 S16x4096x64 S256x16x4096 where
  lhsContracting := [1]
  rhsContracting := [2]
  lhsNonContracting := [0]
  rhsNonContracting := [0, 1]
  lhsBatch := []
  rhsBatch := []
  wf := dot_S256x64_S16x4096x64_S256x16x4096_1_2_0_01_n_n_wf

class Facts : Prop extends Facts₀ where

variable [Facts]
-- ==== Proof.LibWholeStore.lean ====
import Idealize.ShloMosaic.Lib.Pipeline.FrameBody
import Idealize.ShloMosaic.Lib.Pipeline.Value

/-!
# A store through the whole of a buffer, read back

A buffer of shape `S` is written through a list of pieces, the last written first. When the last
store's rectangle is the whole shape (offset zero on every axis, extent the shape's), what the buffer
holds afterwards, read through the view, is that store's payload: every index lies in the rectangle,
and the rectangle's embedding is the identity. Nothing is asked of the earlier stores or of the
contents before them.
-/

namespace Idealize.ShloMosaic.View

variable {Val : EltTy → Type} {sig : RefSig} {κ : Kind} {sp : Space} {S : Shape} {e : EltTy}

/-- After a list of stores whose LAST one (the head) fills the whole shape with `w`, the view reads `w`. -/
theorem read_writes_whole_head (v : View sig κ sp S e) (f : v.ty.Contents Val) {off : Fin S.rank → Nat}
    (h : off = fun _ => 0) (inb : ∀ a, off a + S.size a ≤ S.size a) (w : S.Idx → Val e) (L : List (Piece Val S e)) :
    v.read Val (v.writes Val f ((⟨Rect.unit off S.size inb, w⟩ : Piece Val S e) :: L)) = w := by
  subst h; funext y
  have e := View.read_writes_cons_emb (Val := Val) v f (Rect.whole S) w L y
  rw [Rect.emb_whole_apply] at e
  exact e

end Idealize.ShloMosaic.View
-- ==== Proof.KernelBody.lean ====
import proofs.«179312_j36773509989120_2_alg».proof.Proof.Gen.Kernel.Skeleton
import proofs.«179312_j36773509989120_2_alg».proof.Proof.Gen.Kernel.Frame
import proofs.«179312_j36773509989120_2_alg».proof.Proof.LibWholeStore
import Idealize.ShloMosaic.Lib.Pipeline.FrameBody
import Idealize.ShloMosaic.Lib.Pipeline.Value
import Idealize.ShloMosaic.Lib.Ring
import Idealize.ShloMosaic.Lib.Tactic

/-!
# The kernel's body, point by point, and the frame

Every grid point loads a block of points and the transposed stars and computes the tile's partial minimum;
what it does with the output block depends on the tile index only: the first tile of a batch block overwrites
it, the later tiles fold the partial minimum into it, and the last tile then shifts, clamps and takes the
square root. So the body is run three times — once per kind of point — on whole staging buffers, each run
ending with the inputs untouched and the output block at a stated value. The block's contents after each point
follow by recursion on the point; with them as the pipeline's proof data the body meets its obligation at every
point, the program runs to the end, and the argument arrays end as launched. Everything here holds at any
float instance.
-/

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The three kinds of grid point

The grid is (2 batch blocks) × (4 tiles of the point axis), the tile index innermost: point `t` works on
tile `t % 4` of batch block `t / 4`. The body's three conditionals test the tile index only: the first
holds at tile 0, the second at tiles 1, 2, 3, the third at tile 3. -/

theorem hcond1 : ∀ t : Fin cfg0.N, k0_cond1 (grid0.coords t) = 1#1 ↔ t.val % 4 = 0 :=
  (by decide +kernel : ∀ t : Fin grid0.N, k0_cond1 (grid0.coords t) = 1#1 ↔ t.val % 4 = 0)
theorem hcond2 : ∀ t : Fin cfg0.N, k0_cond2 (grid0.coords t) = 1#1 ↔ t.val % 4 ≠ 0 :=
  (by decide +kernel : ∀ t : Fin grid0.N, k0_cond2 (grid0.coords t) = 1#1 ↔ t.val % 4 ≠ 0)
theorem hcond3 : ∀ t : Fin cfg0.N, k0_cond3 (grid0.coords t) = 1#1 ↔ t.val % 4 = 3 :=
  (by decide +kernel : ∀ t : Fin grid0.N, k0_cond3 (grid0.coords t) = 1#1 ↔ t.val % 4 = 3)

/-- At every grid coordinate the first or the second conditional holds (the tile index is zero or
    positive), so the body stores into the output block at every point: the output window is never idle. -/
theorem idle3 (i : grid0.Coords) : idle0 3 i = false := by
  have key : ∀ v : Fin 4,
      (!(Scalar.cmpi .ne (Scalar.extui (Scalar.cmpi .eq (BitVec.ofNat 32 v.val) 0#32)) 0#32 == 1#1)
        && !(Scalar.cmpi .ne (Scalar.extui (Scalar.cmpi .sgt (BitVec.ofNat 32 v.val) 0#32)) 0#32 == 1#1)
        && !(Scalar.cmpi .ne (Scalar.extui (Scalar.cmpi .eq (BitVec.ofNat 32 v.val) 3#32)) 0#32 == 1#1)) = false := by
    decide
  exact key (i 1)

theorem hz2 : (![0, 0] : Fin 2 → Nat) = fun _ => 0 := funext fun a => by fin_cases a <;> rfl
theorem hz3 : (![0, 0, 0] : Fin 3 → Nat) = fun _ => 0 := funext fun a => by fin_cases a <;> rfl

/-! ## The body, once per kind of point

On whole staging buffers holding the point's input blocks `x0` (points), `x1` (the transposed stars) and
`x2` (the stars' squared norms), the body runs to the end and leaves the inputs as they were and the output
block at: the tile's partial minimum (tile 0, whatever the block held); the minimum of what it held and the
tile's partial minimum (tiles 1 and 2); that minimum shifted by the squared norms, clamped at zero, under
the square root (tile 3). -/

set_option maxHeartbeats 1000000 in
theorem run_first (c : Dev nD) (i : grid0.Coords)
    (a2 : Memref sig .tc .vmem S8x1024x64 .f32) (h2 : a2.IsWhole) (a3 : Memref sig .tc .vmem S64x256 .bf16) (h3 : a3.IsWhole)
    (a4 : Memref sig .tc .vmem S1x256 .f32) (h4 : a4.IsWhole) (a5 : Memref sig .tc .vmem S8x256 .f32) (h5 : a5.IsWhole)
    (hc1 : k0_cond1 i = 1#1) (hc2 : ¬ k0_cond2 i = 1#1) (hc3 : ¬ k0_cond3 i = 1#1)
    (x0 : Vec F S8x1024x64 .f32) (x1 : Vec F S64x256 .bf16) (x2 : Vec F S1x256 .f32) (E : Set ℕ) (K : PUnit → sProp 𝕄) :
    iprop(owns (c : Thread nD τ) a2 fullShare x0 ∗ owns (c : Thread nD τ) a3 fullShare x1 ∗ owns (c : Thread nD τ) a4 fullShare x2
        ∗ (∃ d, owns (c : Thread nD τ) a5 fullShare d)
        ∗ (iprop(owns (c : Thread nD τ) a2 fullShare x0 ∗ owns (c : Thread nD τ) a3 fullShare x1 ∗ owns (c : Thread nD τ) a4 fullShare x2
            ∗ owns (c : Thread nD τ) a5 fullShare (k0_pay1 x0 x1)) -∗ K ⟨⟩))
      ⊢ wp frame (wpE (defs₀ (F := F)) Variants.none c none) E (cc0__kernel i a2 h2 a3 h3 a4 h4 a5 h5) K := by
  simp only [cc0__kernel_eq_skeleton]; unfold cc0__kernel_skel
  unfold owns
  iintro ⟨⟨%f0, %hf0, H0⟩, ⟨%f1, %hf1, H1⟩, ⟨%f2, %hf2, H2⟩, ⟨%d3, %f3, -, H3⟩, Hk⟩
  obtain rfl := h2.eq_unread hf0
  obtain rfl := h3.eq_unread hf1
  obtain rfl := h4.eq_unread hf2
  sl_exec (disch := first | exact hc1 | exact hc2 | exact hc3)
  sl_step
  iapply Hk
  isplitl [H0]
  · iexists _; isplitr; · ipureintro; exact h2.read_unread _
    iexact H0
  isplitl [H1]
  · iexists _; isplitr; · ipureintro; exact h3.read_unread _
    iexact H1
  isplitl [H2]
  · iexists _; isplitr; · ipureintro; exact h4.read_unread _
    iexact H2
  iexists _; isplitr
  swap; · iexact H3
  ipureintro
  rw [View.read_writes_whole_head _ _ hz2]
  simp only [View.readAt_eq_ld, h2.read_unread, h3.read_unread, View.ld_unit_zero (S := S8x1024x64) hz3,
    View.ld_unit_zero (S := S64x256) hz2]

set_option maxHeartbeats 1000000 in
theorem run_mid (c : Dev nD) (i : grid0.Coords)
    (a2 : Memref sig .tc .vmem S8x1024x64 .f32) (h2 : a2.IsWhole) (a3 : Memref sig .tc .vmem S64x256 .bf16) (h3 : a3.IsWhole)
    (a4 : Memref sig .tc .vmem S1x256 .f32) (h4 : a4.IsWhole) (a5 : Memref sig .tc .vmem S8x256 .f32) (h5 : a5.IsWhole)
    (hc1 : ¬ k0_cond1 i = 1#1) (hc2 : k0_cond2 i = 1#1) (hc3 : ¬ k0_cond3 i = 1#1)
    (x0 : Vec F S8x1024x64 .f32) (x1 : Vec F S64x256 .bf16) (x2 : Vec F S1x256 .f32) (old : Vec F S8x256 .f32)
    (E : Set ℕ) (K : PUnit → sProp 𝕄) :
    iprop(owns (c : Thread nD τ) a2 fullShare x0 ∗ owns (c : Thread nD τ) a3 fullShare x1 ∗ owns (c : Thread nD τ) a4 fullShare x2
        ∗ owns (c : Thread nD τ) a5 fullShare old
        ∗ (iprop(owns (c : Thread nD τ) a2 fullShare x0 ∗ owns (c : Thread nD τ) a3 fullShare x1 ∗ owns (c : Thread nD τ) a4 fullShare x2
            ∗ owns (c : Thread nD τ) a5 fullShare (k0_pay2 x0 x1 old)) -∗ K ⟨⟩))
      ⊢ wp frame (wpE (defs₀ (F := F)) Variants.none c none) E (cc0__kernel i a2 h2 a3 h3 a4 h4 a5 h5) K := by
  simp only [cc0__kernel_eq_skeleton]; unfold cc0__kernel_skel
  unfold owns
  iintro ⟨⟨%f0, %hf0, H0⟩, ⟨%f1, %hf1, H1⟩, ⟨%f2, %hf2, H2⟩, ⟨%f3, %hf3, H3⟩, Hk⟩
  obtain rfl := h2.eq_unread hf0
  obtain rfl := h3.eq_unread hf1
  obtain rfl := h4.eq_unread hf2
  obtain rfl := h5.eq_unread hf3
  sl_exec (disch := first | exact hc1 | exact hc2 | exact hc3)
  sl_step
  iapply Hk
  isplitl [H0]
  · iexists _; isplitr; · ipureintro; exact h2.read_unread _
    iexact H0
  isplitl [H1]
  · iexists _; isplitr; · ipureintro; exact h3.read_unread _
    iexact H1
  isplitl [H2]
  · iexists _; isplitr; · ipureintro; exact h4.read_unread _
    iexact H2
  iexists _; isplitr
  swap; · iexact H3
  ipureintro
  rw [View.read_writes_whole_head _ _ hz2]
  simp only [View.readAt_eq_ld, h2.read_unread, h3.read_unread, h5.read_unread, View.ld_unit_zero (S := S8x1024x64) hz3,
    View.ld_unit_zero (S := S64x256) hz2, View.ld_unit_zero (S := S8x256) hz2]

set_option maxHeartbeats 1000000 in
theorem run_last (c : Dev nD) (i : grid0.Coords)
    (a2 : Memref sig .tc .vmem S8x1024x64 .f32) (h2 : a2.IsWhole) (a3 : Memref sig .tc .vmem S64x256 .bf16) (h3 : a3.IsWhole)
    (a4 : Memref sig .tc .vmem S1x256 .f32) (h4 : a4.IsWhole) (a5 : Memref sig .tc .vmem S8x256 .f32) (h5 : a5.IsWhole)
    (hc1 : ¬ k0_cond1 i = 1#1) (hc2 : k0_cond2 i = 1#1) (hc3 : k0_cond3 i = 1#1)
    (x0 : Vec F S8x1024x64 .f32) (x1 : Vec F S64x256 .bf16) (x2 : Vec F S1x256 .f32) (old : Vec F S8x256 .f32)
    (E : Set ℕ) (K : PUnit → sProp 𝕄) :
    iprop(owns (c : Thread nD τ) a2 fullShare x0 ∗ owns (c : Thread nD τ) a3 fullShare x1 ∗ owns (c : Thread nD τ) a4 fullShare x2
        ∗ owns (c : Thread nD τ) a5 fullShare old
        ∗ (iprop(owns (c : Thread nD τ) a2 fullShare x0 ∗ owns (c : Thread nD τ) a3 fullShare x1 ∗ owns (c : Thread nD τ) a4 fullShare x2
            ∗ owns (c : Thread nD τ) a5 fullShare (k0_pay3 x2 (k0_pay2 x0 x1 old))) -∗ K ⟨⟩))
      ⊢ wp frame (wpE (defs₀ (F := F)) Variants.none c none) E (cc0__kernel i a2 h2 a3 h3 a4 h4 a5 h5) K := by
  simp only [cc0__kernel_eq_skeleton]; unfold cc0__kernel_skel
  unfold owns
  iintro ⟨⟨%f0, %hf0, H0⟩, ⟨%f1, %hf1, H1⟩, ⟨%f2, %hf2, H2⟩, ⟨%f3, %hf3, H3⟩, Hk⟩
  obtain rfl := h2.eq_unread hf0
  obtain rfl := h3.eq_unread hf1
  obtain rfl := h4.eq_unread hf2
  obtain rfl := h5.eq_unread hf3
  sl_exec (disch := first | exact hc1 | exact hc2 | exact hc3)
  sl_step
  iapply Hk
  isplitl [H0]
  · iexists _; isplitr; · ipureintro; exact h2.read_unread _
    iexact H0
  isplitl [H1]
  · iexists _; isplitr; · ipureintro; exact h3.read_unread _
    iexact H1
  isplitl [H2]
  · iexists _; isplitr; · ipureintro; exact h4.read_unread _
    iexact H2
  iexists _; isplitr
  swap; · iexact H3
  ipureintro
  rw [View.read_writes_whole_head _ _ hz2]
  sl_unfold_words
  rw [View.readCov_unit_zero (S := S8x256) _ hz2]
  simp only [View.readAt_eq_ld, h2.read_unread, h3.read_unread, h4.read_unread, h5.read_unread,
    View.ld_unit_zero (S := S8x1024x64) hz3, View.ld_unit_zero (S := S64x256) hz2, View.ld_unit_zero (S := S8x256) hz2,
    View.ld_unit_zero (S := S1x256) hz2]

variable (m : (ℓ : Loc nD τ sig) → Buf (Elt F) ℓ) (ρ : Dev nD → PrngReg)

/-! ## What the output block holds after each point

By recursion on the point: at a tile 0 the tile's partial minimum; at tiles 1 and 2 the minimum of what
the point before left and the tile's partial minimum; at tile 3 that minimum, finished. The output's
block index does not move within a batch block, so its staging buffer is carried from tile to tile and
written back after tile 3 only. -/

def outsAt (c : Dev nD) : (n : ℕ) → n < cfg0.N → Vec F S8x256 .f32
  | 0, hn => k0_pay1 (iblk m c 0 ⟨0, hn⟩) (iblk m c 1 ⟨0, hn⟩)
  | n + 1, hn =>
    if (n + 1) % 4 = 0 then k0_pay1 (iblk m c 0 ⟨n + 1, hn⟩) (iblk m c 1 ⟨n + 1, hn⟩)
    else if (n + 1) % 4 = 3 then
      k0_pay3 (iblk m c 2 ⟨n + 1, hn⟩) (k0_pay2 (iblk m c 0 ⟨n + 1, hn⟩) (iblk m c 1 ⟨n + 1, hn⟩) (outsAt c n (Nat.lt_of_succ_lt hn)))
    else k0_pay2 (iblk m c 0 ⟨n + 1, hn⟩) (iblk m c 1 ⟨n + 1, hn⟩) (outsAt c n (Nat.lt_of_succ_lt hn))

theorem outsAt_first (c : Dev nD) (t : Fin cfg0.N) (h0 : t.val % 4 = 0) :
    outsAt m c t.val t.isLt = k0_pay1 (iblk m c 0 t) (iblk m c 1 t) := by
  obtain ⟨n, hn⟩ := t
  cases n with
  | zero => rfl
  | succ n => exact (if_pos h0).trans rfl

theorem outsAt_mid (c : Dev nD) (t : Fin cfg0.N) (h0 : ¬ t.val % 4 = 0) (h3 : ¬ t.val % 4 = 3) :
    outsAt m c t.val t.isLt
      = k0_pay2 (iblk m c 0 t) (iblk m c 1 t) (outsAt m c (t.val - 1) (Nat.lt_of_le_of_lt (Nat.sub_le _ _) t.isLt)) := by
  obtain ⟨n, hn⟩ := t
  cases n with
  | zero => exact absurd (Nat.zero_mod _) h0
  | succ n => exact (if_neg h0).trans ((if_neg h3).trans rfl)

theorem outsAt_last (c : Dev nD) (t : Fin cfg0.N) (h3 : t.val % 4 = 3) :
    outsAt m c t.val t.isLt
      = k0_pay3 (iblk m c 2 t) (k0_pay2 (iblk m c 0 t) (iblk m c 1 t) (outsAt m c (t.val - 1) (Nat.lt_of_le_of_lt (Nat.sub_le _ _) t.isLt))) := by
  obtain ⟨n, hn⟩ := t
  cases n with
  | zero => exact absurd (show (0 : ℕ) % 4 = 3 from h3) (by decide)
  | succ n => exact (if_neg (by dsimp only at h3 ⊢; omega)).trans ((if_pos h3).trans rfl)

/-! ## The pipeline's proof data -/

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => outsAt m c t.val t.isLt
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = outsAt m c t.val t.isLt := by dsimp only [dats]

/-- Each input's current staging buffer holds its block at every point, fetched there or not. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

/-- Past a tile 0 the output's current staging buffer holds what the body left at the point before: the
    point is not the first, the buffer was not written back in between (that happens after a tile 3 only),
    the window is never idle and its blocks tile the array. -/
theorem before0_3_kept (c : Dev nD) (t : Fin cfg0.N) (h0 : ¬ t.val % 4 = 0) (d) :
    (dats m 0 c).before 3 t d = outsAt m c (t.val - 1) (Nat.lt_of_le_of_lt (Nat.sub_le _ _) t.isLt) := by
  have hN : t.val < 8 := lt_of_lt_of_eq t.isLt (show cfg0.N = 8 from N_0)
  rw [Dat.before_out_kept _ 3 rfl t (by omega) (Bool.eq_false_iff.mpr fun h => by have := (flush0_3 _).mp h; dsimp only at this; omega)
    (fun i => by show idle0 3 i = false; exact idle3 i) (fun _ _ => rfl)]
  dsimp only [dats]

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t))

set_option maxHeartbeats 800000 in
/-- The body at any point: the inputs' buffers hold their blocks; the point's tile index says which run
    applies; past a tile 0 the output's buffer holds what the point before left. The invariant passes
    through unread; the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).Φ t.succ = (dats m 0 c).Φ t.castSucc from rfl,
    show (dats m 0 c).owesAt () t.succ = (dats m 0 c).owesAt () t.castSucc from rfl,
    after0_0, after0_1, after0_2, after0_3]
  have hN : t.val < 8 := lt_of_lt_of_eq t.isLt (show cfg0.N = 8 from N_0)
  by_cases h0 : t.val % 4 = 0
  · rw [outsAt_first m c t h0]
    iintro ⟨HΦ, Ho, ⟨%d0, H0⟩, ⟨%d1, H1⟩, ⟨%d2, H2⟩, ⟨%d3, H3⟩⟩
    iapply (run_first c (grid0.coords t) _ _ _ _ _ _ _ _ ((hcond1 t).mpr h0) (fun h => (hcond2 t).mp h h0)
      (fun h => by have := (hcond3 t).mp h; omega) (iblk m c 0 t) (iblk m c 1 t) (iblk m c 2 t) Set.univ _)
    isplitl [H0]; · iexact H0
    isplitl [H1]; · iexact H1
    isplitl [H2]; · iexact H2
    isplitl [H3]; · iexists _; iexact H3
    iintro ⟨H0, H1, H2, H3⟩
    isplitl [HΦ]; · iexact HΦ
    isplitl [Ho]; · iexact Ho
    isplitl [H0]; · iexact H0
    isplitl [H1]; · iexact H1
    isplitl [H2]; · iexact H2
    iexact H3
  · simp only [before0_3_kept m c t h0]
    by_cases h3 : t.val % 4 = 3
    · rw [outsAt_last m c t h3]
      iintro ⟨HΦ, Ho, ⟨%d0, H0⟩, ⟨%d1, H1⟩, ⟨%d2, H2⟩, ⟨%d3, H3⟩⟩
      iapply (run_last c (grid0.coords t) _ _ _ _ _ _ _ _ (fun h => h0 ((hcond1 t).mp h)) ((hcond2 t).mpr h0)
        ((hcond3 t).mpr h3) (iblk m c 0 t) (iblk m c 1 t) (iblk m c 2 t) _ Set.univ _)
      isplitl [H0]; · iexact H0
      isplitl [H1]; · iexact H1
      isplitl [H2]; · iexact H2
      isplitl [H3]; · iexact H3
      iintro ⟨H0, H1, H2, H3⟩
      isplitl [HΦ]; · iexact HΦ
      isplitl [Ho]; · iexact Ho
      isplitl [H0]; · iexact H0
      isplitl [H1]; · iexact H1
      isplitl [H2]; · iexact H2
      iexact H3
    · rw [outsAt_mid m c t h0 h3]
      iintro ⟨HΦ, Ho, ⟨%d0, H0⟩, ⟨%d1, H1⟩, ⟨%d2, H2⟩, ⟨%d3, H3⟩⟩
      iapply (run_mid c (grid0.coords t) _ _ _ _ _ _ _ _ (fun h => h0 ((hcond1 t).mp h)) ((hcond2 t).mpr h0)
        (fun h => h3 ((hcond3 t).mp h)) (iblk m c 0 t) (iblk m c 1 t) (iblk m c 2 t) _ Set.univ _)
      isplitl [H0]; · iexact H0
      isplitl [H1]; · iexact H1
      isplitl [H2]; · iexact H2
      isplitl [H3]; · iexact H3
      iintro ⟨H0, H1, H2, H3⟩
      isplitl [HΦ]; · iexact HΦ
      isplitl [Ho]; · iexact Ho
      isplitl [H0]; · iexact H0
      isplitl [H1]; · iexact H1
      isplitl [H2]; · iexact H2
      iexact H3

/-- The library's body obligation, at every point. -/
theorem body_obligation (c : Dev nD) : BodyObligation (dats (F := F) m 0 c) (defs₀ (F := F)) Variants.none () Set.univ := fun t => by
  rw [bigSep_W0, bigSep_W0]
  have e3 : cfg0.idle (3 : Fin 4) (cfg0.grid.coords t) = false := idle3 _
  rw [e3]
  exact sound_body m c t

/-! ## The run and the frame -/

set_option backward.isDefEq.respectTransparency.types false in
/-- Every weakly fair execution of @main on the TensorCores terminates, and every final state has every
    array of the pipeline at what the library computes from the proof data and every other unscoped buffer
    as the region found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The frame: @main runs to the end, faults nowhere, and leaves both argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (dats m) (A_eq m) (run_main m ρ)

end Cert.Kernel.Hand

end
-- ==== Proof.KernelIdealBody.lean ====
import proofs.«179312_j36773509989120_2_alg».proof.Proof.Gen.KernelIdeal.Skeleton
import proofs.«179312_j36773509989120_2_alg».proof.Proof.Gen.KernelIdeal.Frame
import proofs.«179312_j36773509989120_2_alg».proof.Proof.LibWholeStore
import Idealize.ShloMosaic.Lib.Pipeline.FrameBody
import Idealize.ShloMosaic.Lib.Pipeline.Value
import Idealize.ShloMosaic.Lib.Ring
import Idealize.ShloMosaic.Lib.Tactic

/-!
# The kernel's body, point by point, and the frame

Every grid point loads a block of points and the transposed stars and computes the tile's partial minimum;
what it does with the output block depends on the tile index only: the first tile of a batch block overwrites
it, the later tiles fold the partial minimum into it, and the last tile then shifts, clamps and takes the
square root. So the body is run three times — once per kind of point — on whole staging buffers, each run
ending with the inputs untouched and the output block at a stated value. The block's contents after each point
follow by recursion on the point; with them as the pipeline's proof data the body meets its obligation at every
point, the program runs to the end, and the argument arrays end as launched. Everything here holds at any
float instance.
-/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The three kinds of grid point

The grid is (2 batch blocks) × (4 tiles of the point axis), the tile index innermost: point `t` works on
tile `t % 4` of batch block `t / 4`. The body's three conditionals test the tile index only: the first
holds at tile 0, the second at tiles 1, 2, 3, the third at tile 3. -/

theorem hcond1 : ∀ t : Fin cfg0.N, k0_cond1 (grid0.coords t) = 1#1 ↔ t.val % 4 = 0 :=
  (by decide +kernel : ∀ t : Fin grid0.N, k0_cond1 (grid0.coords t) = 1#1 ↔ t.val % 4 = 0)
theorem hcond2 : ∀ t : Fin cfg0.N, k0_cond2 (grid0.coords t) = 1#1 ↔ t.val % 4 ≠ 0 :=
  (by decide +kernel : ∀ t : Fin grid0.N, k0_cond2 (grid0.coords t) = 1#1 ↔ t.val % 4 ≠ 0)
theorem hcond3 : ∀ t : Fin cfg0.N, k0_cond3 (grid0.coords t) = 1#1 ↔ t.val % 4 = 3 :=
  (by decide +kernel : ∀ t : Fin grid0.N, k0_cond3 (grid0.coords t) = 1#1 ↔ t.val % 4 = 3)

/-- At every grid coordinate the first or the second conditional holds (the tile index is zero or
    positive), so the body stores into the output block at every point: the output window is never idle. -/
theorem idle3 (i : grid0.Coords) : idle0 3 i = false := by
  have key : ∀ v : Fin 4,
      (!(Scalar.cmpi .ne (Scalar.extui (Scalar.cmpi .eq (BitVec.ofNat 32 v.val) 0#32)) 0#32 == 1#1)
        && !(Scalar.cmpi .ne (Scalar.extui (Scalar.cmpi .sgt (BitVec.ofNat 32 v.val) 0#32)) 0#32 == 1#1)
        && !(Scalar.cmpi .ne (Scalar.extui (Scalar.cmpi .eq (BitVec.ofNat 32 v.val) 3#32)) 0#32 == 1#1)) = false := by
    decide
  exact key (i 1)

theorem hz2 : (![0, 0] : Fin 2 → Nat) = fun _ => 0 := funext fun a => by fin_cases a <;> rfl
theorem hz3 : (![0, 0, 0] : Fin 3 → Nat) = fun _ => 0 := funext fun a => by fin_cases a <;> rfl

/-! ## The body, once per kind of point

On whole staging buffers holding the point's input blocks `x0` (points), `x1` (the transposed stars) and
`x2` (the stars' squared norms), the body runs to the end and leaves the inputs as they were and the output
block at: the tile's partial minimum (tile 0, whatever the block held); the minimum of what it held and the
tile's partial minimum (tiles 1 and 2); that minimum shifted by the squared norms, clamped at zero, under
the square root (tile 3). -/

set_option maxHeartbeats 1000000 in
theorem run_first (c : Dev nD) (i : grid0.Coords)
    (a2 : Memref sig .tc .vmem S8x1024x64 .f32) (h2 : a2.IsWhole) (a3 : Memref sig .tc .vmem S64x256 .bf16) (h3 : a3.IsWhole)
    (a4 : Memref sig .tc .vmem S1x256 .f32) (h4 : a4.IsWhole) (a5 : Memref sig .tc .vmem S8x256 .f32) (h5 : a5.IsWhole)
    (hc1 : k0_cond1 i = 1#1) (hc2 : ¬ k0_cond2 i = 1#1) (hc3 : ¬ k0_cond3 i = 1#1)
    (x0 : Vec F S8x1024x64 .f32) (x1 : Vec F S64x256 .bf16) (x2 : Vec F S1x256 .f32) (E : Set ℕ) (K : PUnit → sProp 𝕄) :
    iprop(owns (c : Thread nD τ) a2 fullShare x0 ∗ owns (c : Thread nD τ) a3 fullShare x1 ∗ owns (c : Thread nD τ) a4 fullShare x2
        ∗ (∃ d, owns (c : Thread nD τ) a5 fullShare d)
        ∗ (iprop(owns (c : Thread nD τ) a2 fullShare x0 ∗ owns (c : Thread nD τ) a3 fullShare x1 ∗ owns (c : Thread nD τ) a4 fullShare x2
            ∗ owns (c : Thread nD τ) a5 fullShare (k0_pay1 x0 x1)) -∗ K ⟨⟩))
      ⊢ wp frame (wpE (defs₀ (F := F)) Variants.none c none) E (cc0__kernel i a2 h2 a3 h3 a4 h4 a5 h5) K := by
  simp only [cc0__kernel_eq_skeleton]; unfold cc0__kernel_skel
  unfold owns
  iintro ⟨⟨%f0, %hf0, H0⟩, ⟨%f1, %hf1, H1⟩, ⟨%f2, %hf2, H2⟩, ⟨%d3, %f3, -, H3⟩, Hk⟩
  obtain rfl := h2.eq_unread hf0
  obtain rfl := h3.eq_unread hf1
  obtain rfl := h4.eq_unread hf2
  sl_exec (disch := first | exact hc1 | exact hc2 | exact hc3)
  sl_step
  iapply Hk
  isplitl [H0]
  · iexists _; isplitr; · ipureintro; exact h2.read_unread _
    iexact H0
  isplitl [H1]
  · iexists _; isplitr; · ipureintro; exact h3.read_unread _
    iexact H1
  isplitl [H2]
  · iexists _; isplitr; · ipureintro; exact h4.read_unread _
    iexact H2
  iexists _; isplitr
  swap; · iexact H3
  ipureintro
  rw [View.read_writes_whole_head _ _ hz2]
  simp only [View.readAt_eq_ld, h2.read_unread, h3.read_unread, View.ld_unit_zero (S := S8x1024x64) hz3,
    View.ld_unit_zero (S := S64x256) hz2]

set_option maxHeartbeats 1000000 in
theorem run_mid (c : Dev nD) (i : grid0.Coords)
    (a2 : Memref sig .tc .vmem S8x1024x64 .f32) (h2 : a2.IsWhole) (a3 : Memref sig .tc .vmem S64x256 .bf16) (h3 : a3.IsWhole)
    (a4 : Memref sig .tc .vmem S1x256 .f32) (h4 : a4.IsWhole) (a5 : Memref sig .tc .vmem S8x256 .f32) (h5 : a5.IsWhole)
    (hc1 : ¬ k0_cond1 i = 1#1) (hc2 : k0_cond2 i = 1#1) (hc3 : ¬ k0_cond3 i = 1#1)
    (x0 : Vec F S8x1024x64 .f32) (x1 : Vec F S64x256 .bf16) (x2 : Vec F S1x256 .f32) (old : Vec F S8x256 .f32)
    (E : Set ℕ) (K : PUnit → sProp 𝕄) :
    iprop(owns (c : Thread nD τ) a2 fullShare x0 ∗ owns (c : Thread nD τ) a3 fullShare x1 ∗ owns (c : Thread nD τ) a4 fullShare x2
        ∗ owns (c : Thread nD τ) a5 fullShare old
        ∗ (iprop(owns (c : Thread nD τ) a2 fullShare x0 ∗ owns (c : Thread nD τ) a3 fullShare x1 ∗ owns (c : Thread nD τ) a4 fullShare x2
            ∗ owns (c : Thread nD τ) a5 fullShare (k0_pay2 x0 x1 old)) -∗ K ⟨⟩))
      ⊢ wp frame (wpE (defs₀ (F := F)) Variants.none c none) E (cc0__kernel i a2 h2 a3 h3 a4 h4 a5 h5) K := by
  simp only [cc0__kernel_eq_skeleton]; unfold cc0__kernel_skel
  unfold owns
  iintro ⟨⟨%f0, %hf0, H0⟩, ⟨%f1, %hf1, H1⟩, ⟨%f2, %hf2, H2⟩, ⟨%f3, %hf3, H3⟩, Hk⟩
  obtain rfl := h2.eq_unread hf0
  obtain rfl := h3.eq_unread hf1
  obtain rfl := h4.eq_unread hf2
  obtain rfl := h5.eq_unread hf3
  sl_exec (disch := first | exact hc1 | exact hc2 | exact hc3)
  sl_step
  iapply Hk
  isplitl [H0]
  · iexists _; isplitr; · ipureintro; exact h2.read_unread _
    iexact H0
  isplitl [H1]
  · iexists _; isplitr; · ipureintro; exact h3.read_unread _
    iexact H1
  isplitl [H2]
  · iexists _; isplitr; · ipureintro; exact h4.read_unread _
    iexact H2
  iexists _; isplitr
  swap; · iexact H3
  ipureintro
  rw [View.read_writes_whole_head _ _ hz2]
  simp only [View.readAt_eq_ld, h2.read_unread, h3.read_unread, h5.read_unread, View.ld_unit_zero (S := S8x1024x64) hz3,
    View.ld_unit_zero (S := S64x256) hz2, View.ld_unit_zero (S := S8x256) hz2]

set_option maxHeartbeats 1000000 in
theorem run_last (c : Dev nD) (i : grid0.Coords)
    (a2 : Memref sig .tc .vmem S8x1024x64 .f32) (h2 : a2.IsWhole) (a3 : Memref sig .tc .vmem S64x256 .bf16) (h3 : a3.IsWhole)
    (a4 : Memref sig .tc .vmem S1x256 .f32) (h4 : a4.IsWhole) (a5 : Memref sig .tc .vmem S8x256 .f32) (h5 : a5.IsWhole)
    (hc1 : ¬ k0_cond1 i = 1#1) (hc2 : k0_cond2 i = 1#1) (hc3 : k0_cond3 i = 1#1)
    (x0 : Vec F S8x1024x64 .f32) (x1 : Vec F S64x256 .bf16) (x2 : Vec F S1x256 .f32) (old : Vec F S8x256 .f32)
    (E : Set ℕ) (K : PUnit → sProp 𝕄) :
    iprop(owns (c : Thread nD τ) a2 fullShare x0 ∗ owns (c : Thread nD τ) a3 fullShare x1 ∗ owns (c : Thread nD τ) a4 fullShare x2
        ∗ owns (c : Thread nD τ) a5 fullShare old
        ∗ (iprop(owns (c : Thread nD τ) a2 fullShare x0 ∗ owns (c : Thread nD τ) a3 fullShare x1 ∗ owns (c : Thread nD τ) a4 fullShare x2
            ∗ owns (c : Thread nD τ) a5 fullShare (k0_pay3 x2 (k0_pay2 x0 x1 old))) -∗ K ⟨⟩))
      ⊢ wp frame (wpE (defs₀ (F := F)) Variants.none c none) E (cc0__kernel i a2 h2 a3 h3 a4 h4 a5 h5) K := by
  simp only [cc0__kernel_eq_skeleton]; unfold cc0__kernel_skel
  unfold owns
  iintro ⟨⟨%f0, %hf0, H0⟩, ⟨%f1, %hf1, H1⟩, ⟨%f2, %hf2, H2⟩, ⟨%f3, %hf3, H3⟩, Hk⟩
  obtain rfl := h2.eq_unread hf0
  obtain rfl := h3.eq_unread hf1
  obtain rfl := h4.eq_unread hf2
  obtain rfl := h5.eq_unread hf3
  sl_exec (disch := first | exact hc1 | exact hc2 | exact hc3)
  sl_step
  iapply Hk
  isplitl [H0]
  · iexists _; isplitr; · ipureintro; exact h2.read_unread _
    iexact H0
  isplitl [H1]
  · iexists _; isplitr; · ipureintro; exact h3.read_unread _
    iexact H1
  isplitl [H2]
  · iexists _; isplitr; · ipureintro; exact h4.read_unread _
    iexact H2
  iexists _; isplitr
  swap; · iexact H3
  ipureintro
  rw [View.read_writes_whole_head _ _ hz2]
  sl_unfold_words
  rw [View.readCov_unit_zero (S := S8x256) _ hz2]
  simp only [View.readAt_eq_ld, h2.read_unread, h3.read_unread, h4.read_unread, h5.read_unread,
    View.ld_unit_zero (S := S8x1024x64) hz3, View.ld_unit_zero (S := S64x256) hz2, View.ld_unit_zero (S := S8x256) hz2,
    View.ld_unit_zero (S := S1x256) hz2]

variable (m : (ℓ : Loc nD τ sig) → Buf (Elt F) ℓ) (ρ : Dev nD → PrngReg)

/-! ## What the output block holds after each point

By recursion on the point: at a tile 0 the tile's partial minimum; at tiles 1 and 2 the minimum of what
the point before left and the tile's partial minimum; at tile 3 that minimum, finished. The output's
block index does not move within a batch block, so its staging buffer is carried from tile to tile and
written back after tile 3 only. -/

def outsAt (c : Dev nD) : (n : ℕ) → n < cfg0.N → Vec F S8x256 .f32
  | 0, hn => k0_pay1 (iblk m c 0 ⟨0, hn⟩) (iblk m c 1 ⟨0, hn⟩)
  | n + 1, hn =>
    if (n + 1) % 4 = 0 then k0_pay1 (iblk m c 0 ⟨n + 1, hn⟩) (iblk m c 1 ⟨n + 1, hn⟩)
    else if (n + 1) % 4 = 3 then
      k0_pay3 (iblk m c 2 ⟨n + 1, hn⟩) (k0_pay2 (iblk m c 0 ⟨n + 1, hn⟩) (iblk m c 1 ⟨n + 1, hn⟩) (outsAt c n (Nat.lt_of_succ_lt hn)))
    else k0_pay2 (iblk m c 0 ⟨n + 1, hn⟩) (iblk m c 1 ⟨n + 1, hn⟩) (outsAt c n (Nat.lt_of_succ_lt hn))

theorem outsAt_first (c : Dev nD) (t : Fin cfg0.N) (h0 : t.val % 4 = 0) :
    outsAt m c t.val t.isLt = k0_pay1 (iblk m c 0 t) (iblk m c 1 t) := by
  obtain ⟨n, hn⟩ := t
  cases n with
  | zero => rfl
  | succ n => exact (if_pos h0).trans rfl

theorem outsAt_mid (c : Dev nD) (t : Fin cfg0.N) (h0 : ¬ t.val % 4 = 0) (h3 : ¬ t.val % 4 = 3) :
    outsAt m c t.val t.isLt
      = k0_pay2 (iblk m c 0 t) (iblk m c 1 t) (outsAt m c (t.val - 1) (Nat.lt_of_le_of_lt (Nat.sub_le _ _) t.isLt)) := by
  obtain ⟨n, hn⟩ := t
  cases n with
  | zero => exact absurd (Nat.zero_mod _) h0
  | succ n => exact (if_neg h0).trans ((if_neg h3).trans rfl)

theorem outsAt_last (c : Dev nD) (t : Fin cfg0.N) (h3 : t.val % 4 = 3) :
    outsAt m c t.val t.isLt
      = k0_pay3 (iblk m c 2 t) (k0_pay2 (iblk m c 0 t) (iblk m c 1 t) (outsAt m c (t.val - 1) (Nat.lt_of_le_of_lt (Nat.sub_le _ _) t.isLt))) := by
  obtain ⟨n, hn⟩ := t
  cases n with
  | zero => exact absurd (show (0 : ℕ) % 4 = 3 from h3) (by decide)
  | succ n => exact (if_neg (by dsimp only at h3 ⊢; omega)).trans ((if_pos h3).trans rfl)

/-! ## The pipeline's proof data -/

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => outsAt m c t.val t.isLt
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = outsAt m c t.val t.isLt := by dsimp only [dats]

/-- Each input's current staging buffer holds its block at every point, fetched there or not. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

/-- Past a tile 0 the output's current staging buffer holds what the body left at the point before: the
    point is not the first, the buffer was not written back in between (that happens after a tile 3 only),
    the window is never idle and its blocks tile the array. -/
theorem before0_3_kept (c : Dev nD) (t : Fin cfg0.N) (h0 : ¬ t.val % 4 = 0) (d) :
    (dats m 0 c).before 3 t d = outsAt m c (t.val - 1) (Nat.lt_of_le_of_lt (Nat.sub_le _ _) t.isLt) := by
  have hN : t.val < 8 := lt_of_lt_of_eq t.isLt (show cfg0.N = 8 from N_0)
  rw [Dat.before_out_kept _ 3 rfl t (by omega) (Bool.eq_false_iff.mpr fun h => by have := (flush0_3 _).mp h; dsimp only at this; omega)
    (fun i => by show idle0 3 i = false; exact idle3 i) (fun _ _ => rfl)]
  dsimp only [dats]

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t))

set_option maxHeartbeats 800000 in
/-- The body at any point: the inputs' buffers hold their blocks; the point's tile index says which run
    applies; past a tile 0 the output's buffer holds what the point before left. The invariant passes
    through unread; the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).Φ t.succ = (dats m 0 c).Φ t.castSucc from rfl,
    show (dats m 0 c).owesAt () t.succ = (dats m 0 c).owesAt () t.castSucc from rfl,
    after0_0, after0_1, after0_2, after0_3]
  have hN : t.val < 8 := lt_of_lt_of_eq t.isLt (show cfg0.N = 8 from N_0)
  by_cases h0 : t.val % 4 = 0
  · rw [outsAt_first m c t h0]
    iintro ⟨HΦ, Ho, ⟨%d0, H0⟩, ⟨%d1, H1⟩, ⟨%d2, H2⟩, ⟨%d3, H3⟩⟩
    iapply (run_first c (grid0.coords t) _ _ _ _ _ _ _ _ ((hcond1 t).mpr h0) (fun h => (hcond2 t).mp h h0)
      (fun h => by have := (hcond3 t).mp h; omega) (iblk m c 0 t) (iblk m c 1 t) (iblk m c 2 t) Set.univ _)
    isplitl [H0]; · iexact H0
    isplitl [H1]; · iexact H1
    isplitl [H2]; · iexact H2
    isplitl [H3]; · iexists _; iexact H3
    iintro ⟨H0, H1, H2, H3⟩
    isplitl [HΦ]; · iexact HΦ
    isplitl [Ho]; · iexact Ho
    isplitl [H0]; · iexact H0
    isplitl [H1]; · iexact H1
    isplitl [H2]; · iexact H2
    iexact H3
  · simp only [before0_3_kept m c t h0]
    by_cases h3 : t.val % 4 = 3
    · rw [outsAt_last m c t h3]
      iintro ⟨HΦ, Ho, ⟨%d0, H0⟩, ⟨%d1, H1⟩, ⟨%d2, H2⟩, ⟨%d3, H3⟩⟩
      iapply (run_last c (grid0.coords t) _ _ _ _ _ _ _ _ (fun h => h0 ((hcond1 t).mp h)) ((hcond2 t).mpr h0)
        ((hcond3 t).mpr h3) (iblk m c 0 t) (iblk m c 1 t) (iblk m c 2 t) _ Set.univ _)
      isplitl [H0]; · iexact H0
      isplitl [H1]; · iexact H1
      isplitl [H2]; · iexact H2
      isplitl [H3]; · iexact H3
      iintro ⟨H0, H1, H2, H3⟩
      isplitl [HΦ]; · iexact HΦ
      isplitl [Ho]; · iexact Ho
      isplitl [H0]; · iexact H0
      isplitl [H1]; · iexact H1
      isplitl [H2]; · iexact H2
      iexact H3
    · rw [outsAt_mid m c t h0 h3]
      iintro ⟨HΦ, Ho, ⟨%d0, H0⟩, ⟨%d1, H1⟩, ⟨%d2, H2⟩, ⟨%d3, H3⟩⟩
      iapply (run_mid c (grid0.coords t) _ _ _ _ _ _ _ _ (fun h => h0 ((hcond1 t).mp h)) ((hcond2 t).mpr h0)
        (fun h => h3 ((hcond3 t).mp h)) (iblk m c 0 t) (iblk m c 1 t) (iblk m c 2 t) _ Set.univ _)
      isplitl [H0]; · iexact H0
      isplitl [H1]; · iexact H1
      isplitl [H2]; · iexact H2
      isplitl [H3]; · iexact H3
      iintro ⟨H0, H1, H2, H3⟩
      isplitl [HΦ]; · iexact HΦ
      isplitl [Ho]; · iexact Ho
      isplitl [H0]; · iexact H0
      isplitl [H1]; · iexact H1
      isplitl [H2]; · iexact H2
      iexact H3

/-- The library's body obligation, at every point. -/
theorem body_obligation (c : Dev nD) : BodyObligation (dats (F := F) m 0 c) (defs₀ (F := F)) Variants.none () Set.univ := fun t => by
  rw [bigSep_W0, bigSep_W0]
  have e3 : cfg0.idle (3 : Fin 4) (cfg0.grid.coords t) = false := idle3 _
  rw [e3]
  exact sound_body m c t

/-! ## The run and the frame -/

set_option backward.isDefEq.respectTransparency.types false in
/-- Every weakly fair execution of @main on the TensorCores terminates, and every final state has every
    array of the pipeline at what the library computes from the proof data and every other unscoped buffer
    as the region found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The frame: @main runs to the end, faults nowhere, and leaves both argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (dats m) (A_eq m) (run_main m ρ)

end Cert.KernelIdeal.Hand

end
-- ==== Proof.LibRank3Layout.lean ====
import Idealize.ShloMosaic.Lib.Pipeline.Value
import Idealize.ShloMosaic.Lib.ValueIdx

/-!
# Layout operations of a kept-dimension reduction and of a flattened matrix product, read at coordinates

Four re-layouts, each read at an index written by its coordinates:
* an `[a, b]` array cast to `[a, b, 1]` (a trailing unit axis added) reads, at `(i, j, u)`, the operand at `(i, j)`;
* an `[a, b, 1]` array broadcast to `[a, b, c]` reads, at `(i, j, k)`, the operand at `(i, j, 0)`;
* an `[a, b, c]` array cast to `[n, c]` with the two leading axes flattened reads, at `(p, k)` with
  `p = i · b + j`, the operand at `(i, j, k)`;
* an `[n, c]` array cast back to `[a, b, c]` reads, at `(i, j, k)`, the operand at `(i · b + j, k)`.
Each is the row-major position computed on both sides.
-/

namespace Idealize.ShloMosaic.ValueLayout3

open Idealize.ShloMosaic Idealize.ShloMosaic.ValueIdx

variable {α : Type}

/-- `[a, b]` cast to `[a, b, 1]`, read at `(i, j, u)`. -/
theorem shapeCast_ab_ab1_apply {a b : ℕ} (x : (⟨2, ![a, b]⟩ : Shape).Idx → α)
    (h : (⟨2, ![a, b]⟩ : Shape).ShapeCasts ⟨3, ![a, b, 1]⟩) (i : Fin a) (j : Fin b) (u : Fin 1) :
    shapeCast ⟨3, ![a, b, 1]⟩ x h (ix3 i j u) = x (ix2 i j) :=
  shapeCast_apply x h _ _ (by
    have hu : u.val = 0 := by omega
    rw [Shape.rowMajor_val_three, Shape.rowMajor_val_two]
    show i.val * b + j.val = (i.val * b + j.val) * 1 + u.val
    rw [hu, Nat.mul_one, Nat.add_zero])

/-- `[a, b, 1]` broadcast to `[a, b, c]`, read at `(i, j, k)`. -/
theorem broadcastTo_ab1_abc_apply {a b c : ℕ} (v : (⟨3, ![a, b, 1]⟩ : Shape).Idx → α)
    (h : (⟨3, ![a, b, 1]⟩ : Shape).Broadcasts ⟨3, ![a, b, c]⟩) (i : Fin a) (j : Fin b) (k : Fin c) :
    broadcastTo ⟨3, ![a, b, c]⟩ v h (ix3 i j k) = v (ix3 i j (0 : Fin 1)) := by
  refine broadcastTo_apply v h (ix3 i j k) (ix3 i j (0 : Fin 1)) fun ax => ?_
  match ax with
  | ⟨0, _⟩ =>
    show i.val = if a = 1 then 0 else i.val
    split
    · have := i.isLt; omega
    · rfl
  | ⟨1, _⟩ =>
    show j.val = if b = 1 then 0 else j.val
    split
    · have := j.isLt; omega
    · rfl
  | ⟨2, _⟩ => rfl

/-- `[a, b, c]` cast to `[n, c]` (the two leading axes flattened), read at `(p, k)` with `p = i · b + j`. -/
theorem shapeCast_abc_nc_apply {a b c n : ℕ} (x : (⟨3, ![a, b, c]⟩ : Shape).Idx → α)
    (h : (⟨3, ![a, b, c]⟩ : Shape).ShapeCasts ⟨2, ![n, c]⟩) (p : Fin n) (i : Fin a) (j : Fin b) (k : Fin c)
    (hp : p.val = i.val * b + j.val) :
    shapeCast ⟨2, ![n, c]⟩ x h (ix2 p k) = x (ix3 i j k) :=
  shapeCast_apply x h _ _ (by
    rw [Shape.rowMajor_val_three, Shape.rowMajor_val_two]
    show (i.val * b + j.val) * c + k.val = p.val * c + k.val
    rw [hp])

/-- `[n, c]` cast to `[a, b, c]`, read at `(i, j, k)`: the operand at `(p, k)` with `p = i · b + j`. -/
theorem shapeCast_nc_abc_apply {a b c n : ℕ} (x : (⟨2, ![n, c]⟩ : Shape).Idx → α)
    (h : (⟨2, ![n, c]⟩ : Shape).ShapeCasts ⟨3, ![a, b, c]⟩) (p : Fin n) (i : Fin a) (j : Fin b) (k : Fin c)
    (hp : p.val = i.val * b + j.val) :
    shapeCast ⟨3, ![a, b, c]⟩ x h (ix3 i j k) = x (ix2 p k) :=
  shapeCast_apply x h _ _ (by
    rw [Shape.rowMajor_val_three, Shape.rowMajor_val_two]
    show p.val * c + k.val = (i.val * b + j.val) * c + k.val
    rw [hp])

end Idealize.ShloMosaic.ValueLayout3
-- ==== Proof.KernelPayload.lean ====
import proofs.«179312_j36773509989120_2_alg».proof.Proof.Gen.KernelIdeal.Skeleton
import proofs.«179312_j36773509989120_2_alg».proof.Proof.LibRank3Layout
import Idealize.ShloMosaic.Lib.ValueLayout
import Idealize.ShloMosaic.Lib.ValueIdx
import Idealize.ShloMosaic.Lib.Pipeline.Value
import Idealize.ShloMosaic.PureOps.Ideal.Laws

/-!
# What the body's three stores hold, entry by entry, at the ideal instance

For a block `x` of 8 batches × 1024 points × 64 coordinates and the transposed stars `w` (64 × 256):
* the first store's value at (batch `r`, star `o`) is the minimum over the tile's 1024 points `s` (a fold of
  `min` from +∞) of `Σ_f x² + (Σ_f x · w) · (−2)`: the row sum of squares is broadcast along the stars, the
  matrix product is taken on the points flattened to 8192 rows and cast back;
* the second is the entrywise minimum of what the block held and the first;
* the third adds the stars' squared norms (one row, broadcast over the batches), clamps at zero and takes the
  square root.
-/

noncomputable section

namespace Cert.KernelIdeal.Pay

open Cert.KernelIdeal Cert.KernelIdeal.Gen
open Idealize.ShloMosaic Idealize.ShloMosaic.ValueIdx Idealize.ShloMosaic.ValueLayout3

/-- The row sum of squares at (r, s). -/
theorem sumsq_apply (x : FVec Ideal S8x1024x64 .f32) (r : Fin 8) (s : Fin 1024) :
    multiReduction (F := Ideal) .add [2] S8x1024 (mulf x x) 0x00000000#32 reduces_S8x1024x64_S8x1024 (.inl rfl) rfl (ix2 r s)
      = ∑ f : Fin 64, x (ix3 r s f) * x (ix3 r s f) := by
  refine (Ideal.multiReduction_add_single (mulf x x) 0x00000000#32 reduces_S8x1024x64_S8x1024 (.inl rfl) rfl (ix2 r s)).trans ?_
  refine Finset.sum_congr rfl fun f _ => ?_
  have e : reduces_S8x1024x64_S8x1024.lift (ix2 r s) f = ix3 r s f :=
    funext fun a => Fin.ext (by match a with | ⟨0, _⟩ => rfl | ⟨1, _⟩ => rfl | ⟨2, _⟩ => rfl)
  rw [e]; rfl

/-- The flattened row of point (r, s). -/
def row (r : Fin 8) (s : Fin 1024) : Fin 8192 := ⟨r.val * 1024 + s.val, by omega⟩

theorem lhs0 (i : S8192x256.Idx) (q : dot_S8192x64_S64x256_S8192x256_1_0_0_1_n_n.contr.Idx) :
    (dot_S8192x64_S64x256_S8192x256_1_0_0_1_n_n.lhsIdx i q 0).val = (i 0).val := by
  unfold DotDims.lhsIdx
  rw [dif_neg (show ¬(0 : Fin S8192x64.rank) ∈ dot_S8192x64_S64x256_S8192x256_1_0_0_1_n_n.lhsBatch by decide),
    dif_pos (show (0 : Fin S8192x64.rank) ∈ dot_S8192x64_S64x256_S8192x256_1_0_0_1_n_n.lhsNonContracting by decide)]
  rfl
theorem lhs1 (i : S8192x256.Idx) (q : dot_S8192x64_S64x256_S8192x256_1_0_0_1_n_n.contr.Idx) :
    (dot_S8192x64_S64x256_S8192x256_1_0_0_1_n_n.lhsIdx i q 1).val = (q ⟨0, by decide⟩).val :=
  dot_S8192x64_S64x256_S8192x256_1_0_0_1_n_n.lhsIdx_val_of_single rfl i q
theorem rhs0 (i : S8192x256.Idx) (q : dot_S8192x64_S64x256_S8192x256_1_0_0_1_n_n.contr.Idx) :
    (dot_S8192x64_S64x256_S8192x256_1_0_0_1_n_n.rhsIdx i q 0).val = (q ⟨0, by decide⟩).val :=
  dot_S8192x64_S64x256_S8192x256_1_0_0_1_n_n.rhsIdx_val_of_single rfl i q
theorem rhs1 (i : S8192x256.Idx) (q : dot_S8192x64_S64x256_S8192x256_1_0_0_1_n_n.contr.Idx) :
    (dot_S8192x64_S64x256_S8192x256_1_0_0_1_n_n.rhsIdx i q 1).val = (i 1).val := by
  unfold DotDims.rhsIdx
  rw [dif_neg (show ¬(1 : Fin S64x256.rank) ∈ dot_S8192x64_S64x256_S8192x256_1_0_0_1_n_n.rhsBatch by decide),
    dif_pos (show (1 : Fin S64x256.rank) ∈ dot_S8192x64_S64x256_S8192x256_1_0_0_1_n_n.rhsNonContracting by decide)]
  rfl

/-- The matrix product of the flattened block with the transposed stars, at (row, star): the sum over the
    64 coordinates of the products. -/
theorem prod_apply (y : FVec Ideal S8192x64 .bf16) (w : FVec Ideal S64x256 .bf16) (p : Fin 8192) (o : Fin 256) :
    matmul (F := Ideal) dot_S8192x64_S64x256_S8192x256_1_0_0_1_n_n none y w (constant S8192x256 .f32 0x00000000#32) (ix2 p o)
      = ∑ f : Fin 64, y (ix2 p f) * w (ix2 f o) := by
  simp only [matmul]
  rw [Ideal.matmul_constant_zero_apply, ← Equiv.sum_comp (ValueIdx.contrEquiv1 dot_S8192x64_S64x256_S8192x256_1_0_0_1_n_n 64 rfl rfl).symm]
  refine Finset.sum_congr rfl fun k _ => ?_
  have hk := ValueIdx.contrEquiv1_symm_val dot_S8192x64_S64x256_S8192x256_1_0_0_1_n_n 64 rfl rfl k
  have el : dot_S8192x64_S64x256_S8192x256_1_0_0_1_n_n.lhsIdx (ix2 p o) ((ValueIdx.contrEquiv1 dot_S8192x64_S64x256_S8192x256_1_0_0_1_n_n 64 rfl rfl).symm k) = ix2 p k :=
    funext fun a => Fin.ext (by
      match a with
      | ⟨0, _⟩ => exact lhs0 _ _
      | ⟨1, _⟩ => exact (lhs1 _ _).trans hk)
  have er : dot_S8192x64_S64x256_S8192x256_1_0_0_1_n_n.rhsIdx (ix2 p o) ((ValueIdx.contrEquiv1 dot_S8192x64_S64x256_S8192x256_1_0_0_1_n_n 64 rfl rfl).symm k) = ix2 k o :=
    funext fun a => Fin.ext (by
      match a with
      | ⟨0, _⟩ => exact (rhs0 _ _).trans hk
      | ⟨1, _⟩ => exact rhs1 _ _)
  rw [el, er]

/-- The quantity the tile minimizes, at (batch r, point s, star o). -/
def pre (x : FVec Ideal S8x1024x64 .f32) (w : FVec Ideal S64x256 .bf16) (r : Fin 8) (s : Fin 1024) (o : Fin 256) : EReal :=
  (∑ f : Fin 64, x (ix3 r s f) * x (ix3 r s f)) + (∑ f : Fin 64, x (ix3 r s f) * w (ix2 f o)) * Ideal.ofBits .f32 0xC0000000#32

/-- A minimum taken along the middle axis of an 8 × 1024 × 256 array, from +∞, at (r, o): the fold of `min` over
    the 1024 middle coordinates. -/
theorem minred_apply (src : FVec Ideal S8x1024x256 .f32) (r : Fin 8) (o : Fin 256) :
    multiReduction (F := Ideal) .minimumf [1] S8x256 src 0x7F800000#32 reduces_S8x1024x256_S8x256 (.inl rfl) rfl (ix2 r o)
      = Finset.univ.fold min (Ideal.ofBits .f32 0x7F800000#32) (fun s : Fin 1024 => src (ix3 r s o)) := by
  refine ((multiReduction_minimumf_eq_fold src 0x7F800000#32 reduces_S8x1024x256_S8x256 (.inl rfl) rfl (ix2 r o)).trans
    (reduces_S8x1024x256_S8x256.fold_filter_drop_single _ _ src (ix2 r o))).trans ?_
  refine congrArg (fun f => Finset.fold min (Ideal.ofBits .f32 0x7F800000#32) f (Finset.univ : Finset (Fin 1024))) (funext fun s => ?_)
  exact congrArg src (funext fun a => Fin.ext (by match a with | ⟨0, _⟩ => rfl | ⟨1, _⟩ => rfl | ⟨2, _⟩ => rfl))

/-- The first store: the tile's minimum, entry by entry. -/
theorem pay1_apply (x : FVec Ideal S8x1024x64 .f32) (w : FVec Ideal S64x256 .bf16) (r : Fin 8) (o : Fin 256) :
    k0_pay1 (F := Ideal) x w (ix2 r o)
      = Finset.univ.fold min (Ideal.ofBits .f32 0x7F800000#32) (fun s : Fin 1024 => pre x w r s o) := by
  unfold k0_pay1
  refine (minred_apply _ r o).trans ?_
  refine congrArg (fun f => Finset.fold min (Ideal.ofBits .f32 0x7F800000#32) f (Finset.univ : Finset (Fin 1024))) (funext fun s => ?_)
  rw [addf_apply, mulf_apply, broadcast_apply]
  unfold pre
  refine congrArg₂ (· + ·) ?_ (congrArg (· * _) ?_)
  · refine (broadcastTo_ab1_abc_apply _ broadcasts_S8x1024x1_S8x1024x256 r s o).trans ?_
    refine (shapeCast_ab_ab1_apply _ shapeCasts_S8x1024_S8x1024x1 r s 0).trans ?_
    exact sumsq_apply x r s
  · refine (shapeCast_nc_abc_apply _ shapeCasts_S8192x256_S8x1024x256 (row r s) r s o rfl).trans ?_
    refine (prod_apply _ _ (row r s) o).trans ?_
    refine Finset.sum_congr rfl fun f _ => ?_
    rw [shapeCast_self]
    refine congrArg (· * _) ?_
    refine (shapeCast_abc_nc_apply _ shapeCasts_S8x1024x64_S8192x64 (row r s) r s f rfl).trans ?_
    rfl

/-- The second store: the entrywise minimum with what the block held. -/
theorem pay2_apply (x : FVec Ideal S8x1024x64 .f32) (w : FVec Ideal S64x256 .bf16) (old : FVec Ideal S8x256 .f32) (r : Fin 8) (o : Fin 256) :
    k0_pay2 (F := Ideal) x w old (ix2 r o) = min (old (ix2 r o)) (k0_pay1 (F := Ideal) x w (ix2 r o)) := by
  unfold k0_pay2
  rw [shapeCast_self]
  rfl

/-- The third store: shift by the stars' squared norms, clamp at zero, square root. -/
theorem pay3_apply (cn : FVec Ideal S1x256 .f32) (acc : FVec Ideal S8x256 .f32) (r : Fin 8) (o : Fin 256) :
    k0_pay3 (F := Ideal) cn acc (ix2 r o)
      = Ideal.sqrt (max (acc (ix2 r o) + cn (ix2 (0 : Fin 1) o)) (Ideal.ofBits .f32 0x00000000#32)) := by
  unfold k0_pay3
  rw [shapeCast_self, shapeCast_self]
  show Ideal.sqrt (max (acc (ix2 r o) + broadcastTo S8x256 cn broadcasts_S1x256_S8x256 (ix2 r o)) _) = _
  rw [broadcastTo_1b_ab_apply]
  rfl

end Cert.KernelIdeal.Pay

end
-- ==== Proof.LibMinFold.lean ====
import Mathlib.Data.Finset.Fold
import Mathlib.Data.Fintype.Basic
import Mathlib.Order.Monotone.Basic
import Mathlib.Order.BoundedOrder.Basic

/-!
# The minimum over a set cut into four tiles, under a monotone map

In a linear order with a top element, `Finset.fold min ⊤ f s` is the minimum of `f` over `s` (the top for the
empty set): it is below every `f k`, and over a nonempty set it is attained. A monotone map `g` therefore
carries "the least of the four tile minima" to "the minimum over all points of `g ∘ F`" when the points are
exactly the pairs (tile, place in the tile): `g` of the least tile minimum is `g (F s)` at some point `s`, and
it is below `g (F s)` at every point. Nothing is asked of `g ⊤`.
-/

namespace MinFold

variable {α β : Type*} [LinearOrder α] [OrderTop α] [LinearOrder β] [OrderTop β]

/-- The fold of `min` from the top is below every term. -/
theorem fold_le {K : Type*} (s : Finset K) (f : K → α) {k : K} (hk : k ∈ s) : s.fold min ⊤ f ≤ f k :=
  (Finset.fold_min_le _).mpr (Or.inr ⟨k, hk, le_rfl⟩)

/-- Over a nonempty set the fold of `min` from the top is one of the terms. -/
theorem exists_fold_eq {K : Type*} (s : Finset K) (hs : s.Nonempty) (f : K → α) : ∃ k ∈ s, s.fold min ⊤ f = f k := by
  rcases (Finset.fold_min_le _).mp (le_refl (s.fold min ⊤ f)) with h | ⟨k, hk, h⟩
  · obtain ⟨k, hk⟩ := hs
    exact ⟨k, hk, le_antisymm (fold_le s f hk) (le_trans le_top h)⟩
  · exact ⟨k, hk, le_antisymm (fold_le s f hk) h⟩

/-- Four tiles of `R` places each make up the points `S` (`dec` splits a point, `enc` names one): a monotone `g` of
    the least of the four tile minima of `f` is the minimum over all points of `g ∘ F`. -/
theorem min4_tiles {R S : Type*} [Fintype R] [Nonempty R] [Fintype S] (g : α → β) (hg : Monotone g)
    (f : Fin 4 → R → α) (F : S → α)
    (dec : S → Fin 4 × R) (hdec : ∀ s, F s = f (dec s).1 (dec s).2)
    (enc : Fin 4 → R → S) (henc : ∀ j r, F (enc j r) = f j r) :
    g (min (min (min (Finset.univ.fold min ⊤ (f 0)) (Finset.univ.fold min ⊤ (f 1))) (Finset.univ.fold min ⊤ (f 2)))
        (Finset.univ.fold min ⊤ (f 3)))
      = Finset.univ.fold min ⊤ (fun s => g (F s)) := by
  have hle : ∀ j : Fin 4, min (min (min (Finset.univ.fold min ⊤ (f 0)) (Finset.univ.fold min ⊤ (f 1))) (Finset.univ.fold min ⊤ (f 2)))
      (Finset.univ.fold min ⊤ (f 3)) ≤ Finset.univ.fold min ⊤ (f j) := by
    intro j
    match j with
    | ⟨0, _⟩ => exact le_trans (min_le_left _ _) (le_trans (min_le_left _ _) (min_le_left _ _))
    | ⟨1, _⟩ => exact le_trans (min_le_left _ _) (le_trans (min_le_left _ _) (min_le_right _ _))
    | ⟨2, _⟩ => exact le_trans (min_le_left _ _) (min_le_right _ _)
    | ⟨3, _⟩ => exact min_le_right _ _
  have hex : ∃ j : Fin 4, min (min (min (Finset.univ.fold min ⊤ (f 0)) (Finset.univ.fold min ⊤ (f 1))) (Finset.univ.fold min ⊤ (f 2)))
      (Finset.univ.fold min ⊤ (f 3)) = Finset.univ.fold min ⊤ (f j) := by
    rcases min_choice (min (min (Finset.univ.fold min ⊤ (f 0)) (Finset.univ.fold min ⊤ (f 1))) (Finset.univ.fold min ⊤ (f 2)))
      (Finset.univ.fold min ⊤ (f 3)) with h3 | h3
    · rcases min_choice (min (Finset.univ.fold min ⊤ (f 0)) (Finset.univ.fold min ⊤ (f 1))) (Finset.univ.fold min ⊤ (f 2)) with h2 | h2
      · rcases min_choice (Finset.univ.fold min ⊤ (f 0)) (Finset.univ.fold min ⊤ (f 1)) with h1 | h1
        · exact ⟨0, by rw [h3, h2, h1]⟩
        · exact ⟨1, by rw [h3, h2, h1]⟩
      · exact ⟨2, by rw [h3, h2]⟩
    · exact ⟨3, h3⟩
  apply le_antisymm
  · refine (Finset.le_fold_min _).mpr ⟨le_top, fun s _ => hg ?_⟩
    rw [hdec s]
    exact le_trans (hle (dec s).1) (fold_le _ _ (Finset.mem_univ _))
  · obtain ⟨j, hj⟩ := hex
    obtain ⟨r, -, hr⟩ := exists_fold_eq Finset.univ Finset.univ_nonempty (f j)
    rw [hj, hr, ← henc j r]
    exact fold_le Finset.univ (fun s => g (F s)) (Finset.mem_univ (enc j r))

end MinFold
-- ==== Proof.MinDist.lean ====
import proofs.«179312_j36773509989120_2_alg».proof.Proof.LibMinFold
import Idealize.ShloMosaic.PureOps.Ideal
import Idealize.ShloMosaic.PureOps.Ideal.Laws
import Idealize.ShloMosaic.Lib.ValueIdx

/-!
# The least distance from a star to a batch's points, two ways

`X` holds 16 batches of 4096 points in 64 coordinates, `St` 256 stars in 64 coordinates. For batch `b`, point
`s` and star `o` write `sq b s = Σ_f X² `, `c2 o = 0 + Σ_f St²` and `cross b s o = Σ_f X · St`.

* The kernel's form `Gk`: cut the 4096 points into four tiles of 1024; per tile take the minimum over its
  points of `sq + cross · (−2)`; take the least of the four; add `c2`, clamp at zero, take the square root.
* The reference's form `Gr`: the minimum over all 4096 points of the square root of
  `((0 + sq) + c2) − 2 · cross'` clamped at zero, `cross'` the same sum with its factors swapped.

They are equal on all extended reals. Point by point the two expressions under the square root agree
(sums and products commute, `a − 2·x = a + x·(−2)`), and `z ↦ √(max (z + c) 0)` is monotone, so it passes
through the minimum over the tiles.
-/

noncomputable section

namespace Cert.MinDist

open Idealize.ShloMosaic Idealize.ShloMosaic.ValueIdx

abbrev SX : Shape := ⟨3, ![16, 4096, 64]⟩
abbrev SS : Shape := ⟨2, ![256, 64]⟩
abbrev SO : Shape := ⟨2, ![16, 256]⟩

/-! ## The four float words the programs spell, as extended reals -/

theorem w_zero : Ideal.ofBits .f32 0x00000000#32 = 0 := Ideal.ofBits_zero_f32
theorem w_inf : Ideal.ofBits .f32 0x7F800000#32 = ⊤ := by simp [Ideal.ofBits, Ideal.ieee]
theorem w_two : Ideal.ofBits .f32 0x40000000#32 = ((2 : ℝ) : EReal) := by
  simp [Ideal.ofBits, Ideal.ieee, -EReal.coe_mul]; norm_num
theorem w_neg_two : Ideal.ofBits .f32 0xC0000000#32 = ((-2 : ℝ) : EReal) := by
  simp [Ideal.ofBits, Ideal.ieee, -EReal.coe_mul]; norm_num

/-! ## The square root is monotone on the extended reals -/

theorem sqrt_mono : Monotone Ideal.sqrt := by
  intro a b hab
  induction a using EReal.rec with
  | bot => exact bot_le
  | top => obtain rfl : b = ⊤ := top_le_iff.mp hab; exact le_rfl
  | coe r =>
    induction b using EReal.rec with
    | bot => exact absurd hab (by simp)
    | top => exact le_top
    | coe q =>
      have hrq : r ≤ q := EReal.coe_le_coe_iff.mp hab
      rw [Ideal.sqrt_coe, Ideal.sqrt_coe]
      by_cases hr : r < 0
      · rw [if_pos hr]; exact bot_le
      · have hq : ¬ q < 0 := by linarith
        rw [if_neg hr, if_neg hq]; exact EReal.coe_le_coe_iff.mpr (Real.sqrt_le_sqrt hrq)

/-! ## The two forms -/

variable (X : SX.Idx → EReal) (St : SS.Idx → EReal)

def sq (b : Fin 16) (s : Fin 4096) : EReal := ∑ f : Fin 64, X (ix3 b s f) * X (ix3 b s f)
def c2 (o : Fin 256) : EReal := Ideal.ofBits .f32 0x00000000#32 + ∑ f : Fin 64, St (ix2 o f) * St (ix2 o f)
def cross (b : Fin 16) (s : Fin 4096) (o : Fin 256) : EReal := ∑ f : Fin 64, X (ix3 b s f) * St (ix2 o f)
/-- The kernel's quantity at a point, before the shift by `c2`. -/
def dk (b : Fin 16) (s : Fin 4096) (o : Fin 256) : EReal := sq X b s + cross X St b s o * Ideal.ofBits .f32 0xC0000000#32
/-- The last step: shift, clamp at zero, square root. -/
def fin (c z : EReal) : EReal := Ideal.sqrt (max (z + c) (Ideal.ofBits .f32 0x00000000#32))
/-- Place `r` of tile `j`. -/
def pt (j : Fin 4) (r : Fin 1024) : Fin 4096 := ⟨1024 * j.val + r.val, by omega⟩
/-- One tile's minimum. -/
def tile (b : Fin 16) (o : Fin 256) (j : Fin 4) : EReal :=
  Finset.univ.fold min (Ideal.ofBits .f32 0x7F800000#32) (fun r : Fin 1024 => dk X St b (pt j r) o)
def Gk : SO.Idx → EReal := fun i =>
  fin (c2 St (i 1)) (min (min (min (tile X St (i 0) (i 1) 0) (tile X St (i 0) (i 1) 1)) (tile X St (i 0) (i 1) 2)) (tile X St (i 0) (i 1) 3))
/-- The reference's quantity at a point. -/
def er (b : Fin 16) (o : Fin 256) (s : Fin 4096) : EReal :=
  Ideal.sqrt (max (((Ideal.ofBits .f32 0x00000000#32 + sq X b s) + c2 St o)
    - Ideal.ofBits .f32 0x40000000#32 * ∑ f : Fin 64, St (ix2 o f) * X (ix3 b s f)) (Ideal.ofBits .f32 0x00000000#32))
def Gr : SO.Idx → EReal := fun i =>
  Finset.univ.fold min (Ideal.ofBits .f32 0x7F800000#32) (fun s : Fin 4096 => er X St (i 0) (i 1) s)

theorem fin_mono (c : EReal) : Monotone (fin c) := fun a b hab =>
  sqrt_mono (max_le_max (add_le_add hab le_rfl) le_rfl)

/-- At one point the two quantities agree. -/
theorem fin_dk (b : Fin 16) (s : Fin 4096) (o : Fin 256) : fin (c2 St o) (dk X St b s o) = er X St b o s := by
  unfold fin er dk cross
  have hc : (∑ f : Fin 64, St (ix2 o f) * X (ix3 b s f)) = ∑ f : Fin 64, X (ix3 b s f) * St (ix2 o f) :=
    Finset.sum_congr rfl fun f _ => mul_comm _ _
  rw [hc, w_zero, w_two, w_neg_two, zero_add, sub_eq_add_neg]
  congr 2
  rw [show ((-2 : ℝ) : EReal) = -((2 : ℝ) : EReal) from by norm_num, mul_neg, mul_comm _ ((2 : ℝ) : EReal),
    add_assoc, add_comm (-_) _, ← add_assoc]

theorem Gk_eq_Gr : Gk X St = Gr X St := by
  funext i
  unfold Gk Gr tile
  rw [w_inf]
  have h := MinFold.min4_tiles (R := Fin 1024) (S := Fin 4096) (fin (c2 St (i 1))) (fin_mono _)
    (fun j r => dk X St (i 0) (pt j r) (i 1)) (fun s => dk X St (i 0) s (i 1))
    (fun s => (⟨s.val / 1024, by have := s.isLt; omega⟩, ⟨s.val % 1024, Nat.mod_lt _ (by decide)⟩))
    (fun s => by
      show dk X St (i 0) s (i 1) = dk X St (i 0) (pt _ _) (i 1)
      congr 1
      exact Fin.ext (by show s.val = 1024 * (s.val / 1024) + s.val % 1024; omega))
    pt (fun _ _ => rfl)
  rw [h]
  exact congrArg (fun f => Finset.fold min ⊤ f (Finset.univ : Finset (Fin 4096))) (funext fun s => fin_dk X St (i 0) s (i 1))

end Cert.MinDist

end
-- ==== Proof.KernelValue.lean ====
import proofs.«179312_j36773509989120_2_alg».proof.Proof.KernelIdealBody
import proofs.«179312_j36773509989120_2_alg».proof.Proof.KernelPayload
import proofs.«179312_j36773509989120_2_alg».proof.Proof.MinDist
import Idealize.ShloMosaic.Lib.StableHlo.Run
import Idealize.ShloMosaic.Lib.Pipeline.Value
import Idealize.ShloMosaic.Lib.ValueIdx
import Idealize.ShloMosaic.Lib.ValueLayout
import Idealize.ShloMosaic.PureOps.Ideal.Laws

/-!
# The idealized kernel's result array

Point `t` of the grid works on batch block `t / 4` (8 batches) and tile `t % 4` (1024 points). Its three input
blocks are: the points of that batch block and tile; the stars transposed (written before the region by a
transpose and a change of format, which is the identity here), whole; the stars' squared norms (a sum of squares
reshaped to one row), whole. The output block of batch block `q` is carried through tiles 0–3 and written back after
tile 3. Unfolding the four steps, entry (r, o) of what is written back after point `4q + 3` is the least of the four
tile minima, shifted by the star's squared norm, clamped at zero, under the square root: the kernel's form of the
least distance at (8q + r, o). The two written-back blocks cover the 16 × 256 result.
-/

set_option maxRecDepth 16384

noncomputable section

namespace Cert.KernelIdeal.HandValue

open Cert.KernelIdeal Cert.KernelIdeal.Gen Cert.KernelIdeal.Hand
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

/-! ## The two arrays written before the region -/

/-- The second window's array: the stars transposed (the change of format is the identity). -/
theorem V_v1 (c : Dev nD) : @Eq (S64x256.Idx → Elt Ideal .bf16) (V m c main_v1)
    (truncf (F := Ideal) .bf16 (transpose S64x256 [1, 0] (m ((c : Thread nD τ).loc main_arg1)) transposes_S256x64_S64x256_1_0) bitsLt_bf16_f32) := by
  dsimp only [V, hostOps0]; after_results

/-- The third window's array: the stars' squared norms, as one row. -/
theorem V_v4 (c : Dev nD) : @Eq (S1x256.Idx → Elt Ideal .f32) (V m c main_v4)
    (shapeCast S1x256 (Host.reduceAdd (F := Ideal) (mulf (F := Ideal) (m ((c : Thread nD τ).loc main_arg1)) (m ((c : Thread nD τ).loc main_arg1)))
        (constant (F := Ideal) S_ .f32 0x00000000#32) reducesTo_S256x64_S256_d1 h_S_) shapeCasts_S256_S1x256) := by
  dsimp only [V, hostOps0]; after_results; rfl

/-! ## The windows' blocks, entry by entry -/

/-- The printed index maps over the grid: the points' block index is (t / 4, t % 4, 0), the output's (t / 4, 0),
    the two whole-array windows' (0, 0). -/
theorem idx_facts : ∀ t : Fin cfg0.N, win0_0.index t (0 : Fin 3) = t.val / 4 ∧ win0_0.index t (1 : Fin 3) = t.val % 4
    ∧ win0_0.index t (2 : Fin 3) = 0 ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val / 4 ∧ win0_3.index t (1 : Fin 2) = 0 :=
  (by decide +kernel : ∀ t : Fin grid0.N, _)

theorem iblk0_apply (c : Dev nD) (t : Fin cfg0.N) (r : Fin 8) (s : Fin 1024) (f : Fin 64) (b : Fin 16) (p : Fin 4096)
    (hb : b.val = 8 * (t.val / 4) + r.val) (hp : p.val = 1024 * (t.val % 4) + s.val) :
    (iblk m c 0 t : Vec Ideal S8x1024x64 .f32) (ix3 r s f) = m ((c : Thread nD τ).loc main_arg0) (ix3 b p f) := by
  unfold iblk
  rw [View.read_apply]
  show V m c main_arg0 _ = _
  rw [V_main_arg0]
  refine congrArg _ (funext fun a => Fin.ext ?_)
  obtain ⟨e0, e1, e2, -⟩ := idx_facts t
  match a with
  | ⟨0, _⟩ => show win0_0.index t (0 : Fin 3) * 8 + 1 * r.val = b.val; rw [e0, hb]; omega
  | ⟨1, _⟩ => show win0_0.index t (1 : Fin 3) * 1024 + 1 * s.val = p.val; rw [e1, hp]; omega
  | ⟨2, _⟩ => show win0_0.index t (2 : Fin 3) * 64 + 1 * f.val = f.val; rw [e2]; omega

theorem iblk1_apply (c : Dev nD) (t : Fin cfg0.N) (f : Fin 64) (o : Fin 256) :
    (iblk m c 1 t : Vec Ideal S64x256 .bf16) (ix2 f o) = m ((c : Thread nD τ).loc main_arg1) (ix2 o f) := by
  unfold iblk
  rw [View.read_apply]
  show V m c main_v1 _ = _
  rw [V_v1]
  obtain ⟨-, -, -, e3, e4, -⟩ := idx_facts t
  have e : ((cfg0.win 1).blk t).view.emb (ix2 f o) = ix2 f o := funext fun a => Fin.ext (by
    match a with
    | ⟨0, _⟩ => show win0_1.index t (0 : Fin 2) * 64 + 1 * f.val = f.val; rw [e3]; omega
    | ⟨1, _⟩ => show win0_1.index t (1 : Fin 2) * 256 + 1 * o.val = o.val; rw [e4]; omega)
  rw [e, truncf_apply]
  exact transpose_ix2_apply _ _ f o

theorem iblk2_apply (c : Dev nD) (t : Fin cfg0.N) (o : Fin 256) :
    (iblk m c 2 t : Vec Ideal S1x256 .f32) (ix2 (0 : Fin 1) o) = Cert.MinDist.c2 (m ((c : Thread nD τ).loc main_arg1)) o := by
  unfold iblk
  rw [View.read_apply]
  show V m c main_v4 _ = _
  rw [V_v4]
  obtain ⟨-, -, -, -, -, e5, e6, -⟩ := idx_facts t
  have e : ((cfg0.win 2).blk t).view.emb (ix2 (0 : Fin 1) o) = ix2 (0 : Fin 1) o := funext fun a => Fin.ext (by
    match a with
    | ⟨0, _⟩ => show win0_2.index t (0 : Fin 2) * 1 + 1 * 0 = 0; rw [e5]
    | ⟨1, _⟩ => show win0_2.index t (1 : Fin 2) * 256 + 1 * o.val = o.val; rw [e6]; omega)
  rw [e, shapeCast_a_1a_apply]
  simp only [Host.reduceAdd, Ideal.hostReduceAdd_def]
  rw [Ideal.hostReduceAdd_single reducesTo_S256x64_S256_d1 (by decide)]
  unfold Cert.MinDist.c2
  refine congrArg₂ (· + ·) rfl (Finset.sum_congr rfl fun f _ => ?_)
  have hs : ∀ St : S256x64.Idx → EReal, ∀ i i' : S256x64.Idx, i = i' → St i * St i = St i' * St i' := fun St i i' h => by rw [h]
  exact hs (m ((c : Thread nD τ).loc main_arg1)) _ _ (funext fun a => Fin.ext (by match a with | ⟨0, _⟩ => rfl | ⟨1, _⟩ => rfl))

/-! ## One tile's minimum -/

/-- The first store's value at point `t`, entry (r, o), is the minimum over tile `t % 4` for batch `8 (t / 4) + r`. -/
theorem tile_apply (c : Dev nD) (t : Fin cfg0.N) (r : Fin 8) (o : Fin 256) (b : Fin 16) (j : Fin 4)
    (hb : b.val = 8 * (t.val / 4) + r.val) (hj : j.val = t.val % 4) :
    k0_pay1 (F := Ideal) (iblk m c 0 t) (iblk m c 1 t) (ix2 r o)
      = Cert.MinDist.tile (m ((c : Thread nD τ).loc main_arg0)) (m ((c : Thread nD τ).loc main_arg1)) b o j := by
  refine (Cert.KernelIdeal.Pay.pay1_apply (iblk m c 0 t) (iblk m c 1 t) r o).trans ?_
  unfold Cert.MinDist.tile
  refine congrArg (fun f => Finset.fold min (Ideal.ofBits .f32 0x7F800000#32) f (Finset.univ : Finset (Fin 1024))) (funext fun s => ?_)
  unfold Cert.KernelIdeal.Pay.pre Cert.MinDist.dk Cert.MinDist.sq Cert.MinDist.cross
  have hx : ∀ f : Fin 64, (iblk m c 0 t : Vec Ideal S8x1024x64 .f32) (ix3 r s f) = m ((c : Thread nD τ).loc main_arg0) (ix3 b (Cert.MinDist.pt j s) f) :=
    fun f => iblk0_apply m c t r s f b (Cert.MinDist.pt j s) hb (by show 1024 * j.val + s.val = _; rw [hj])
  have hw : ∀ f : Fin 64, (iblk m c 1 t : Vec Ideal S64x256 .bf16) (ix2 f o) = m ((c : Thread nD τ).loc main_arg1) (ix2 o f) :=
    fun f => iblk1_apply m c t f o
  simp only [hx, hw]

/-! ## What is written back after a tile 3 -/

theorem outsAt_flush (c : Dev nD) (t : Fin cfg0.N) (h3 : t.val % 4 = 3) (r : Fin 8) (o : Fin 256) (b : Fin 16)
    (hb : b.val = 8 * (t.val / 4) + r.val) :
    outsAt m c t.val t.isLt (ix2 r o) = Cert.MinDist.Gk (m ((c : Thread nD τ).loc main_arg0)) (m ((c : Thread nD τ).loc main_arg1)) (ix2 b o) := by
  have hN : t.val < 8 := lt_of_lt_of_eq t.isLt (show cfg0.N = 8 from N_0)
  have l1 : t.val - 1 < cfg0.N := Nat.lt_of_le_of_lt (Nat.sub_le _ _) t.isLt
  have l2 : t.val - 1 - 1 < cfg0.N := Nat.lt_of_le_of_lt (Nat.sub_le _ _) l1
  have l3 : t.val - 1 - 1 - 1 < cfg0.N := Nat.lt_of_le_of_lt (Nat.sub_le _ _) l2
  have A3 : outsAt m c t.val t.isLt
      = k0_pay3 (iblk m c 2 t) (k0_pay2 (iblk m c 0 t) (iblk m c 1 t) (outsAt m c (t.val - 1) l1)) := outsAt_last m c t h3
  have A2 : outsAt m c (t.val - 1) l1
      = k0_pay2 (iblk m c 0 ⟨t.val - 1, l1⟩) (iblk m c 1 ⟨t.val - 1, l1⟩) (outsAt m c (t.val - 1 - 1) l2) :=
    outsAt_mid m c ⟨t.val - 1, l1⟩ (by show ¬ (t.val - 1) % 4 = 0; omega) (by show ¬ (t.val - 1) % 4 = 3; omega)
  have A1 : outsAt m c (t.val - 1 - 1) l2
      = k0_pay2 (iblk m c 0 ⟨t.val - 1 - 1, l2⟩) (iblk m c 1 ⟨t.val - 1 - 1, l2⟩) (outsAt m c (t.val - 1 - 1 - 1) l3) :=
    outsAt_mid m c ⟨t.val - 1 - 1, l2⟩ (by show ¬ (t.val - 1 - 1) % 4 = 0; omega) (by show ¬ (t.val - 1 - 1) % 4 = 3; omega)
  have A0 : outsAt m c (t.val - 1 - 1 - 1) l3
      = k0_pay1 (iblk m c 0 ⟨t.val - 1 - 1 - 1, l3⟩) (iblk m c 1 ⟨t.val - 1 - 1 - 1, l3⟩) :=
    outsAt_first m c ⟨t.val - 1 - 1 - 1, l3⟩ (by show (t.val - 1 - 1 - 1) % 4 = 0; omega)
  rw [A3]
  refine (Cert.KernelIdeal.Pay.pay3_apply (iblk m c 2 t) _ r o).trans ?_
  rw [iblk2_apply m c t o,
    Cert.KernelIdeal.Pay.pay2_apply (iblk m c 0 t) (iblk m c 1 t) (outsAt m c (t.val - 1) l1) r o, A2,
    Cert.KernelIdeal.Pay.pay2_apply (iblk m c 0 ⟨t.val - 1, l1⟩) (iblk m c 1 ⟨t.val - 1, l1⟩) (outsAt m c (t.val - 1 - 1) l2) r o, A1,
    Cert.KernelIdeal.Pay.pay2_apply (iblk m c 0 ⟨t.val - 1 - 1, l2⟩) (iblk m c 1 ⟨t.val - 1 - 1, l2⟩) (outsAt m c (t.val - 1 - 1 - 1) l3) r o, A0,
    tile_apply m c t r o b 3 hb (by show 3 = t.val % 4; omega),
    tile_apply m c ⟨t.val - 1, l1⟩ r o b 2 (by show b.val = 8 * ((t.val - 1) / 4) + r.val; omega) (by show 2 = (t.val - 1) % 4; omega),
    tile_apply m c ⟨t.val - 1 - 1, l2⟩ r o b 1 (by show b.val = 8 * ((t.val - 1 - 1) / 4) + r.val; omega) (by show 1 = (t.val - 1 - 1) % 4; omega),
    tile_apply m c ⟨t.val - 1 - 1 - 1, l3⟩ r o b 0 (by show b.val = 8 * ((t.val - 1 - 1 - 1) / 4) + r.val; omega) (by show 0 = (t.val - 1 - 1 - 1) % 4; omega)]
  rfl

/-- What a tile-3 point writes back is its block of the kernel's form of the least distance. -/
theorem flushed_eq (c : Dev nD) (t : Fin cfg0.N) (hf : (cfg0.win 3).flush t = true) :
    (dats m 0 c).flushed 3 t
      = ((cfg0.win 3).blk t).view.read (Elt Ideal) (Cert.MinDist.Gk (m ((c : Thread nD τ).loc main_arg0)) (m ((c : Thread nD τ).loc main_arg1))) := by
  have h3 : t.val % 4 = 3 := (flush0_3 t).mp hf
  have hN : t.val < 8 := lt_of_lt_of_eq t.isLt (show cfg0.N = 8 from N_0)
  show (cfg0.win 3).cut (grid0.coords t) ((dats m 0 c).after 3 t) = _
  rw [after0_3]
  refine funext fun (y : S8x256.Idx) => ?_
  obtain ⟨r, o, rfl⟩ : ∃ (r : Fin 8) (o : Fin 256), y = ix2 r o := ⟨y 0, y 1, eq_ix2 y⟩
  rw [View.read_apply]
  obtain ⟨-, -, -, -, -, -, -, e7, e8⟩ := idx_facts t
  have hr : r.val < 8 := r.isLt
  have eb : ((cfg0.win 3).blk t).view.emb (ix2 r o) = ix2 (⟨8 * (t.val / 4) + r.val, by omega⟩ : Fin 16) o :=
    funext fun a => Fin.ext (by
      match a with
      | ⟨0, _⟩ => show win0_3.index t (0 : Fin 2) * 8 + 1 * r.val = 8 * (t.val / 4) + r.val; rw [e7]; omega
      | ⟨1, _⟩ => show win0_3.index t (1 : Fin 2) * 256 + 1 * o.val = o.val; rw [e8]; omega)
  rw [eb]
  exact outsAt_flush m c t h3 r o _ rfl

/-- Every entry of the result lies in the block some tile-3 point writes back. -/
theorem cover (i : S16x256.Idx) : ∃ t : Fin cfg0.N, (cfg0.win 3).flush t = true ∧ i ∈ ((cfg0.win 3).blk t).view.set := by
  have hN : cfg0.N = 8 := N_0
  have h0 : (i 0).val < 16 := (i 0).isLt
  have h1 : (i 1).val < 256 := (i 1).isLt
  obtain ⟨tq, htq⟩ : ∃ tq : Fin cfg0.N, tq.val = 4 * ((i 0).val / 8) + 3 := ⟨⟨4 * ((i 0).val / 8) + 3, by omega⟩, rfl⟩
  refine ⟨tq, (flush0_3 tq).mpr (by omega), ?_⟩
  show i ∈ ((View.whole main_v5).slice (win0_3.rect tq)).set
  rw [View.set_slice_whole, Rect.mem_set_unit]
  obtain ⟨-, -, -, -, -, -, -, e7, e8⟩ := idx_facts tq
  intro a
  match a with
  | ⟨0, _⟩ =>
    show win0_3.index tq (0 : Fin 2) * 8 ≤ (i 0).val ∧ (i 0).val < win0_3.index tq (0 : Fin 2) * 8 + 8
    rw [e7, htq]; omega
  | ⟨1, _⟩ =>
    show win0_3.index tq (1 : Fin 2) * 256 ≤ (i 1).val ∧ (i 1).val < win0_3.index tq (1 : Fin 2) * 256 + 256
    rw [e8]; omega

/-- The result array after the run. -/
theorem final (c : Dev nD) : (dats m 0 c).arrAt 3 cfg0.N = Cert.MinDist.Gk (m ((c : Thread nD τ).loc main_arg0)) (m ((c : Thread nD τ).loc main_arg1)) :=
  (dats m 0 c).arrAt_eq_of_cover 3 _ (flushed_eq m c) cover

/-- The run, read: the result at the kernel's form of the least distance, both arguments as launched. -/
theorem run : θ_run defs (onTc (τ := τ) (main (F := Ideal))) ⟨m, fun _ => 0, ρ⟩ fun r => ∀ c : Dev nD,
      r.2.mem ((c : Thread nD τ).loc main_v5) = Cert.MinDist.Gk (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => ⟨((h c).1 3).trans (final m c),
      ((h c).1 0).trans (((dats m 0 c).arrAt_in 0 rfl _).trans ((A_eq m c 0).trans (V_main_arg0 m c))),
      ((h c).2 main_arg1 (Pipeline.mem_restRefs_of main_arg1 (by decide) (by decide))).trans (V_main_arg1 m c)⟩)
    (run_main m ρ)

end Cert.KernelIdeal.HandValue

end
-- ==== Proof.RefValue.lean ====
import proofs.«179312_j36773509989120_2_alg».proof.Proof.Gen.ReferenceIdeal.Read
import proofs.«179312_j36773509989120_2_alg».proof.Proof.MinDist
import Idealize.ShloMosaic.Lib.ValueIdx
import Idealize.ShloMosaic.PureOps.Ideal.Laws

/-!
# The reference computes the minimum over all points

Read one operation at a time at the ideal instance, the reference's result at (batch `b`, star `o`) is the
minimum over the 4096 points `s` (a fold of `min` from +∞ along the last axis) of
`√(max (((0 + Σ_f X²) + (0 + Σ_f St²)) − 2 · Σ_f St · X) 0)`: the squared norms come from the two sums, the cross
term from the contraction transposed to (batch, star, point), the broadcasts only copy.
-/

noncomputable section

namespace Cert.ReferenceIdeal.RefValue

open Cert.ReferenceIdeal Cert.ReferenceIdeal.Gen Cert.ReferenceIdeal.Read
open Idealize.ShloMosaic Idealize.ShloMosaic.ValueIdx

/-- The entry of the last stage's operand at (b, o, s). -/
theorem dist_apply (x0 : S16x4096x64.Idx → EReal) (x1 : S256x64.Idx → EReal) (b : Fin 16) (o : Fin 256) (s : Fin 4096) :
    val_main_v16 (F := Ideal) x0 x1 (ix3 b o s) = Cert.MinDist.er x0 x1 b o s := by
  have e1 : ∀ k : Fin 64, idx_main_v1 (idx_main_v6 (idx_main_v8 (ix3 b o s))) k = ix3 b s k := fun k =>
    funext fun a => Fin.ext (by match a with | ⟨0, _⟩ => rfl | ⟨1, _⟩ => rfl | ⟨2, _⟩ => rfl)
  have e3 : ∀ k : Fin 64, idx_main_v3 (idx_main_v7 (idx_main_v9 (ix3 b o s))) k = ix2 o k := fun k =>
    funext fun a => Fin.ext (by match a with | ⟨0, _⟩ => rfl | ⟨1, _⟩ => rfl)
  have e4l : ∀ k : Fin 64, lidx_main_v4 (idx_main_v5 (ix3 b o s)) k = ix2 o k := fun k =>
    funext fun a => Fin.ext (by match a with | ⟨0, _⟩ => rfl | ⟨1, _⟩ => rfl)
  have e4r : ∀ k : Fin 64, ridx_main_v4 (idx_main_v5 (ix3 b o s)) k = ix3 b s k := fun k =>
    funext fun a => Fin.ext (by match a with | ⟨0, _⟩ => rfl | ⟨1, _⟩ => rfl | ⟨2, _⟩ => rfl)
  rw [val_main_v16_apply, val_main_v15_apply, val_main_v13_apply, val_main_v10_apply, val_main_v12_apply,
    val_main_v8_apply, val_main_v6_apply, val_main_v1_apply, val_main_v9_apply, val_main_v7_apply, val_main_v3_apply,
    val_main_v11_apply, val_main_cst_1_apply, val_main_v5_apply, val_main_v4_apply, val_main_v14_apply,
    val_main_cst_2_apply, val_main_cst_apply, val_main_cst_0_apply]
  simp only [val_main_v0_apply, val_main_v2_apply, e1, e3, e4l, e4r, Ideal.hostUnary_sqrt_def, Ideal.maximumf_def,
    Ideal.subf_def, Ideal.addf_def, Ideal.mulf_def, Ideal.ofBits_def]
  rfl

/-- The reference's result is the reference's form of the least distance. -/
theorem ref_eq (x0 : S16x4096x64.Idx → EReal) (x1 : S256x64.Idx → EReal) :
    val_main_v17 (F := Ideal) x0 x1 = Cert.MinDist.Gr x0 x1 := by
  funext i
  obtain ⟨b, o, rfl⟩ : ∃ (b : Fin 16) (o : Fin 256), i = ix2 b o := ⟨i 0, i 1, eq_ix2 i⟩
  unfold val_main_v17
  rw [Host.reduce_eq_fold_single FloatOps.minimumf _ _ reducesTo_S16x256x4096_S16x256_d2
    (by decide : S16x256x4096.Reduces [2] S16x256) h_S_]
  show Finset.fold min (Ideal.ofBits .f32 0x7F800000#32) _ _ = Finset.fold min (Ideal.ofBits .f32 0x7F800000#32)
    (fun s : Fin 4096 => Cert.MinDist.er x0 x1 b o s) Finset.univ
  refine congrArg (fun f => Finset.fold min (Ideal.ofBits .f32 0x7F800000#32) f (Finset.univ : Finset (Fin 4096))) (funext fun s => ?_)
  refine Eq.trans ?_ (dist_apply x0 x1 b o s)
  exact congrArg (val_main_v16 (F := Ideal) x0 x1)
    (funext fun a => Fin.ext (by match a with | ⟨0, _⟩ => rfl | ⟨1, _⟩ => rfl | ⟨2, _⟩ => rfl))

end Cert.ReferenceIdeal.RefValue

end
-- ==== Proof.lean ====
/-
  The least Euclidean distance from each of 256 stars to the 4096 points of each of 16 batches, computed two ways.

  Both programs expand |x − c|² = |x|² + |c|² − 2 x·c. The reference forms the whole (batch, star, point) table of
  √(max(|x|² + |c|² − 2 x·c, 0)) and takes the minimum over the points. The kernel walks a grid of 2 batch blocks × 4
  tiles of 1024 points: per tile it takes the minimum over the tile's points of |x|² − 2 x·c (the cross term by one
  matrix product on the flattened block, against the stars transposed beforehand), keeps the running minimum in the
  output block across the four tiles, and only after the last tile adds |c|², clamps at zero and takes the square root.

  At the ideal instance (floats are extended reals, operations exact, changes of format the identity) the two agree
  for ALL inputs, so the precondition is never opened: point by point the two expressions under the square root are
  equal (sums and products commute; a − 2·x = a + x·(−2) holds on the extended reals), and z ↦ √(max(z + |c|², 0)) is
  monotone, so it passes through the minimum — the least of the four tile minima is attained at some point, and is below
  the value at every point (Proof/LibMinFold.lean, Proof/MinDist.lean).

  The frames. The kernel's body has three conditionals on the tile index (first tile: store the tile's minimum; later
  tiles: fold it into the block; last tile: finish), so it is run once per kind of point (Proof/KernelBody.lean at the
  word-level instance, Proof/KernelIdealBody.lean at any instance), the output block's contents after each point given
  by recursion on the point; the launch around it is the pipeline library's. The reference is a straight line of host
  operations; its frame is its run with the result forgotten.

  The values. Proof/KernelPayload.lean reads the body's three stores entry by entry; Proof/KernelValue.lean unfolds the
  four steps of a batch block and shows the two written-back blocks cover the result, which is therefore the kernel's
  form of the least distance; Proof/RefValue.lean reads the reference's operations one at a time to the reference's form.
  No rewrite was applied in idealizing the kernel: that conjunct is trivial.
-/
import proofs.«179312_j36773509989120_2_alg».proof.Defs
import proofs.«179312_j36773509989120_2_alg».proof.Proof.Gen.Kernel
import proofs.«179312_j36773509989120_2_alg».proof.Proof.Gen.KernelIdeal
import proofs.«179312_j36773509989120_2_alg».proof.Proof.Gen.ReferenceIdeal
import proofs.«179312_j36773509989120_2_alg».proof.Proof.Gen.ReferenceIdeal.Run
import proofs.«179312_j36773509989120_2_alg».proof.Proof.Gen.ReferenceIdeal.Read
import proofs.«179312_j36773509989120_2_alg».proof.Proof.Gen.Pre_finite_inputs
import proofs.«179312_j36773509989120_2_alg».proof.Proof.KernelBody
import proofs.«179312_j36773509989120_2_alg».proof.Proof.KernelIdealBody
import proofs.«179312_j36773509989120_2_alg».proof.Proof.KernelValue
import proofs.«179312_j36773509989120_2_alg».proof.Proof.RefValue
import proofs.«179312_j36773509989120_2_alg».proof.Proof.MinDist

noncomputable section

namespace Cert.Proof

open Idealize.ShloMosaic Idealize.SL.Sem

/-- The word-level kernel runs to the end, faults nowhere, leaves its arguments as launched. -/
theorem frame_kernel : Cert.frame_Kernel := fun m ρ _ => Cert.Kernel.Hand.frame m ρ

/-- The same for the idealized kernel. -/
theorem frame_kernelIdeal : Cert.frame_KernelIdeal := fun m ρ _ => Cert.KernelIdeal.Hand.frame m ρ

/-- The reference's frame: its run, the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The ideal pass rewrote nothing. -/
theorem preserves : Cert.preserves_Kernel_KernelIdeal := trivial

/-- Both idealized programs end with the least distances: the kernel's result array at the tiled form, the
    reference's at the minimum over all points, of arguments that agree; the two forms are one function. -/
theorem algebraic : Cert.algebraic_KernelIdeal_ReferenceIdeal := by
  intro m ρ m' ρ' _ hagree
  refine ⟨fun c => Cert.MinDist.Gk (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.KernelIdeal.HandValue.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2]
  exact (Cert.ReferenceIdeal.Read.val_main_v17_eq (F := Ideal) _ _).trans
    ((Cert.ReferenceIdeal.RefValue.ref_eq _ _).trans (Cert.MinDist.Gk_eq_Gr _ _).symm)

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
